-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S50000x640 : Shape := ⟨2, ![50000, 640]⟩
abbrev S512x327680 : Shape := ⟨2, ![512, 327680]⟩
abbrev S512 : Shape := ⟨1, ![512]⟩
abbrev S512x512 : Shape := ⟨2, ![512, 512]⟩
abbrev S2x512 : Shape := ⟨2, ![2, 512]⟩
abbrev S2 : Shape := ⟨1, ![2]⟩
abbrev S_ : Shape := ⟨0, ![]⟩

class Facts : Prop where
  bcast_S_S50000x640 : S_.BroadcastsInDim S50000x640 (![] : Fin 0 → Fin S50000x640.rank)
  reducesTo_S50000x640_S_d0_1 : S50000x640.ReducesTo [0, 1] S_
  h_S_ : 0 < S_.numel
  bcast_S_S512x327680 : S_.BroadcastsInDim S512x327680 (![] : Fin 0 → Fin S512x327680.rank)
  reducesTo_S512x327680_S_d0_1 : S512x327680.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S2x512 : S_.BroadcastsInDim S2x512 (![] : Fin 0 → Fin S2x512.rank)
  reducesTo_S2x512_S_d0_1 : S2x512.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S512 .f32) (main_arg7 : FVec F S2x512 .f32) (main_arg8 : FVec F S2 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S2x512 .f32 := Host.absf main_arg7
  let main_cst_8 : FVec F S_ .f32 := constant S_ .f32 0x7F800000#32
  let main_v25 : FVec F S2x512 .f32 := broadcastInDim S2x512 ![] bcast_S_S2x512 main_cst_8
  let main_v26 : IVec S2x512 1 := cmpf .olt main_v24 main_v25
  let main_c_9 : IVec S_ 1 := constantI S_ 1 1#1
  let main_v27 : IVec S_ 1 := (fun x v => Host.reduce IntOp.andi x v reducesTo_S2x512_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : IVec S256x512 32) (main_arg1 : IVec S256x512 32) (main_arg2 : FVec F S50000x640 .f32) (main_arg3 : FVec F S512x327680 .f32) (main_arg4 : FVec F S512 .f32) (main_arg5 : FVec F S512x512 .f32) (main_arg6 : FVec F S512 .f32) (main_arg7 : FVec F S2x512 .f32) (main_arg8 : FVec F S2 .f32) : IVec S_ 1 :=
  let main_v0 : FVec F S50000x640 .f32 := Host.absf main_arg2
  let main_cst : FVec F S_ .f32 := constant S_ .f32 0x7F800000#32
  let main_v1 : FVec F S50000x640 .f32 := broadcastInDim S50000x640 ![] bcast_S_S50000x640 main_cst
  let main_v2 : IVec S50000x640 1 := cmpf .olt main_v0 main_v1
  let main_c : IVec S_ 1 := constantI S_ 1 1#1
  let main_v3 : IVec S_ 1 := (fun x v => Host.reduce IntOp.andi x v reducesTo_S50000x640_S_d0_1 h_S_) main_v2 main_c
  let main_v4 : FVec F S512x327680 .f32 := Host.absf main_arg3
  let main_cst_0 : FVec F S_ .f32 := constant S_ .f32 0x7F800000#32
  let main_v5 : FVec F S512x327680 .f32 := broadcastInDim S512x327680 ![] bcast_S_S512x327680 main_cst_0
  let main_v6 : IVec S512x327680 1 := cmpf .olt main_v4 main_v5
  let main_c_1 : IVec S_ 1 := constantI S_ 1 1#1
  let main_v7 : IVec S_ 1 := (fun x v => Host.reduce IntOp.andi x v reducesTo_S512x327680_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_v13 main_v16
-- ==== Kernel.lean ====
abbrev S256x512 : Shape := ⟨2, ![256, 512]⟩
abbrev S50000x640 : Shape := ⟨2, ![50000, 640]⟩
abbrev S512x327680 : Shape := ⟨2, ![512, 327680]⟩
abbrev S512 : Shape := ⟨1, ![512]⟩
abbrev S512x512 : Shape := ⟨2, ![512, 512]⟩
abbrev S2x512 : Shape := ⟨2, ![2, 512]⟩
abbrev S2 : Shape := ⟨1, ![2]⟩
abbrev S_ : Shape := ⟨0, ![]⟩
abbrev S256x512x1 : Shape := ⟨3, ![256, 512, 1]⟩
abbrev S256x512x640 : Shape := ⟨3, ![256, 512, 640]⟩
abbrev S256x327680 : Shape := ⟨2, ![256, 327680]⟩
abbrev S2x256x512 : Shape := ⟨3, ![2, 256, 512]⟩
abbrev S256x8192 : Shape := ⟨2, ![256, 8192]⟩
abbrev S512x8192 : Shape := ⟨2, ![512, 8192]⟩
abbrev S1x256x512 : Shape := ⟨3, ![1, 256, 512]⟩
abbrev S8192x512 : Shape := ⟨2, ![8192, 512]⟩
abbrev S256x2 : Shape := ⟨2, ![256, 2]⟩
abbrev S1x512 : Shape := ⟨2, ![1, 512]⟩
abbrev S512x2 : Shape := ⟨2, ![512, 2]⟩
abbrev S1x2 : Shape := ⟨2, ![1, 2]⟩

abbrev nBuf : Space → Nat
  | .hbm => 30
  | .vmem => 14
  | .smem => 0
  | _ => 0

abbrev bufTy : (tb : Table) → Fin (tcTables nBuf tb) → BufTy
  | .hbm, ⟨0, _⟩ => ⟨S256x512, .i32⟩
  | .hbm, ⟨1, _⟩ => ⟨S256x512, .i32⟩
  | .hbm, ⟨2, _⟩ => ⟨S50000x640, .f32⟩
  | .hbm, ⟨3, _⟩ => ⟨S512x327680, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S2x512, .f32⟩
  | .hbm, ⟨8, _⟩ => ⟨S2, .f32⟩
  | .hbm, ⟨9, _⟩ => ⟨S256x512, .i32⟩
  | .hbm, ⟨10, _⟩ => ⟨S_, .i32⟩
  | .hbm, ⟨11, _⟩ => ⟨S256x512, .i32⟩
  | .hbm, ⟨12, _⟩ => ⟨S256x512, .i1⟩
  | .hbm, ⟨13, _⟩ => ⟨S_, .i32⟩
  | .hbm, ⟨14, _⟩ => ⟨S256x512, .i32⟩
  | .hbm, ⟨15, _⟩ => ⟨S256x512, .i32⟩
  | .hbm, ⟨16, _⟩ => ⟨S256x512, .i32⟩
  | .hbm, ⟨17, _⟩ => ⟨S256x512x1, .i32⟩
  | .hbm, ⟨18, _⟩ => ⟨S256x512x640, .f32⟩
  | .hbm, ⟨19, _⟩ => ⟨S256x512x1, .i32⟩
  | .hbm, ⟨20, _⟩ => ⟨S256x512x1, .f32⟩
  | .hbm, ⟨21, _⟩ => ⟨S256x512x640, .f32⟩
  | .hbm, ⟨22, _⟩ => ⟨S256x512x640, .f32⟩
  | .hbm, ⟨23, _⟩ => ⟨S256x327680, .f32⟩
  | .hbm, ⟨24, _⟩ => ⟨S256x327680, .bf16⟩
  | .hbm, ⟨25, _⟩ => ⟨S512x327680, .bf16⟩
  | .hbm, ⟨26, _⟩ => ⟨S512x512, .bf16⟩
  | .hbm, ⟨27, _⟩ => ⟨S2x512, .bf16⟩
  | .hbm, ⟨28, _⟩ => ⟨S2x256x512, .f32⟩
  | .hbm, ⟨29, _⟩ => ⟨S256x2, .f32⟩
  | .local _ .vmem, ⟨0, _⟩ => ⟨S256x8192, .bf16⟩
  | .local _ .vmem, ⟨1, _⟩ => ⟨S256x8192, .bf16⟩
  | .local _ .vmem, ⟨2, _⟩ => ⟨S512x8192, .bf16⟩
  | .local _ .vmem, ⟨3, _⟩ => ⟨S512x8192, .bf16⟩
  | .local _ .vmem, ⟨4, _⟩ => ⟨S1x256x512, .f32⟩
  | .local _ .vmem, ⟨5, _⟩ => ⟨S1x256x512, .f32⟩
  | .local _ .vmem, ⟨6, _⟩ => ⟨S256x512, .f32⟩
  | .local _ .vmem, ⟨7, _⟩ => ⟨S2x256x512, .f32⟩
  | .local _ .vmem, ⟨8, _⟩ => ⟨S512, .f32⟩
  | .local _ .vmem, ⟨9, _⟩ => ⟨S512x512, .bf16⟩
  | .local _ .vmem, ⟨10, _⟩ => ⟨S512, .f32⟩
  | .local _ .vmem, ⟨11, _⟩ => ⟨S2x512, .bf16⟩
  | .local _ .vmem, ⟨12, _⟩ => ⟨S2, .f32⟩
  | .local _ .vmem, ⟨13, _⟩ => ⟨S256x2, .f32⟩
  | _, _ => ⟨S256x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12

abbrev nD : Nat := 1
abbrev τ : Topo := Topo.v7x

variable {F : FTy → Type} [FloatOps F]

abbrev grid0 : Pipeline.Grid := ⟨2, ![2, 20], ![false, false]⟩

def k0_cond2 (i : grid0.Coords) : BitVec 1 :=
  let arg1 : BitVec 32 := BitVec.ofNat 32 (i 1).val
  let c19_i32 : BitVec 32 := 19#32
  let v14 : BitVec 1 := Scalar.cmpi .eq arg1 c19_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x256x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  bcast_S_S256x512 : S_.BroadcastsInDim S256x512 (![] : Fin 0 → Fin S256x512.rank)
  bcast_S256x512_S256x512x1_0_1 : S256x512.BroadcastsInDim S256x512x1 (![0, 1] : Fin 2 → Fin S256x512x1.rank)
  bcast_S256x512x1_S256x512x640_0_1_2 : S256x512x1.BroadcastsInDim S256x512x640 (![0, 1, 2] : Fin 3 → Fin S256x512x640.rank)
  shapeCasts_S256x512x640_S256x327680 : S256x512x640.ShapeCasts S256x327680
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  transposes_S512x8192_p1_0_S8192x512 : S512x8192.Transposes [1, 0] S8192x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  inb_S2x256x512_S1x256x512_0_0_0 : ∀ a, (![0, 0, 0] : Fin 3 → Nat) a + S1x256x512.size a ≤ S2x256x512.size a
  inb_S2x256x512_S1x256x512_1_0_0 : ∀ a, (![1, 0, 0] : Fin 3 → Nat) a + S1x256x512.size a ≤ S2x256x512.size a
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  inb_S2x512_S2x512_0_0 : ∀ a, (![0, 0] : Fin 2 → Nat) a + S2x512.size a ≤ S2x512.size a
  h_S2x512 : 0 < S2x512.numel
  shapeCasts_S2x512_S2x512 : S2x512.ShapeCasts S2x512
  transposes_S2x512_p1_0_S512x2 : S2x512.Transposes [1, 0] S512x2
  inb_S2_S2_0 : ∀ a, (![0] : Fin 1 → Nat) a + S2.size a ≤ S2.size a
  h_S2 : 0 < S2.numel
  shapeCasts_S2_S1x2 : S2.ShapeCasts S1x2
  broadcasts_S1x2_S256x2 : S1x2.Broadcasts S256x2
  inb_S256x2_S256x2_0_0 : ∀ a, (![0, 0] : Fin 2 → Nat) a + S256x2.size a ≤ S256x2.size a
  h_S256x2 : 0 < S256x2.numel
  gather_S50000x640_S256x512x1_S256x512x640_2_0_n_n_0_2_1640_wf : GatherDims.WF S50000x640 S256x512x1 S256x512x640 [2] [0] [] [0] [] 2 ![1, 640]
  dot_S256x8192_S8192x512_S256x512_1_0_0_1_n_n_wf : DotDims.WF S256x8192 S8192x512 S256x512 [1] [0] [0] [1] [] []
  dot_S256x512_S512x512_S256x512_1_0_0_1_n_n_wf : DotDims.WF S256x512 S512x512 S256x512 [1] [0] [0] [1] [] []
  dot_S256x512_S512x2_S256x2_1_0_0_1_n_n_wf : DotDims.WF S256x512 S512x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S256x327680.size a
  hwx0_0 : ∀ i : grid0.Coords, EltTy.bits .bf16 = 32 ∨ (Rect.block (s := S256x327680) S256x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8192.size a ≤ S512x327680.size a
  hwx0_1 : ∀ i : grid0.Coords, EltTy.bits .bf16 = 32 ∨ (Rect.block (s := S512x327680) S512x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S2x256x512.size a
  hwx0_2 : ∀ i : grid0.Coords, EltTy.bits .f32 = 32 ∨ (Rect.block (s := S2x256x512) S1x256x512.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x256x512.size a ≤ S2x256x512.size a
  hwx1_0 : ∀ i : grid1.Coords, EltTy.bits .f32 = 32 ∨ (Rect.block (s := S2x256x512) S2x256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512.size a ≤ S512.size a
  hwx1_1 : ∀ i : grid1.Coords, EltTy.bits .f32 = 32 ∨ (Rect.block (s := S512) S512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2x512.size a ≤ S2x512.size a
  hwx1_4 : ∀ i : grid1.Coords, EltTy.bits .bf16 = 32 ∨ (Rect.block (s := S2x512) S2x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2.size a ≤ S2.size a
  hwx1_5 : ∀ i : grid1.Coords, EltTy.bits .f32 = 32 ∨ (Rect.block (s := S2) S2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x2.size a ≤ S256x2.size a
  hwx1_6 : ∀ i : grid1.Coords, EltTy.bits .f32 = 32 ∨ (Rect.block (s := S256x2) S256x2.size (cc1_transform_6 i) (hinb1_6 i)).WholeWords (EltTy.packing .f32)

variable [Facts₀]

def gather_S50000x640_S256x512x1_S256x512x640_2_0_n_n_0_2_1640 : GatherDims S50000x640 S256x512x1 S256x512x640 where
  offsetDims := [2]
  collapsedSliceDims := [0]
  operandBatchingDims := []
  startIndicesBatchingDims := []
  startIndexMap := [0]
  indexVectorDim := 2
  sliceSizes := ![1, 640]
  wf := gather_S50000x640_S256x512x1_S256x512x640_2_0_n_n_0_2_1640_wf
def dot_S256x8192_S8192x512_S256x512_1_0_0_1_n_n : DotDims S256x8192 S8192x512 S256x512 where
  lhsContracting := [1]
  rhsContracting := [0]
  lhsNonContracting := [0]
  rhsNonContracting := [1]
  lhsBatch := []
  rhsBatch := []
  wf := dot_S256x8192_S8192x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x2_S256x2_1_0_0_1_n_n : DotDims S256x512 S512x2 S256x2 where
  lhsContracting := [1]
  rhsContracting := [0]
  lhsNonContracting := [0]
  rhsNonContracting := [1]
  lhsBatch := []
  rhsBatch := []
  wf := dot_S256x512_S512x2_S256x2_1_0_0_1_n_n_wf

abbrev win0_0 : Pipeline.Window sig grid0 :=
  Pipeline.Window.ofSpec (Memref.whole main_v13) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S512x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v17) S2x256x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S2x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S256x2.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S256x512 : Shape := ⟨2, ![256, 512]⟩
abbrev S50000x640 : Shape := ⟨2, ![50000, 640]⟩
abbrev S512x327680 : Shape := ⟨2, ![512, 327680]⟩
abbrev S512 : Shape := ⟨1, ![512]⟩
abbrev S512x512 : Shape := ⟨2, ![512, 512]⟩
abbrev S2x512 : Shape := ⟨2, ![2, 512]⟩
abbrev S2 : Shape := ⟨1, ![2]⟩
abbrev S_ : Shape := ⟨0, ![]⟩
abbrev S256x512x1 : Shape := ⟨3, ![256, 512, 1]⟩
abbrev S256x512x640 : Shape := ⟨3, ![256, 512, 640]⟩
abbrev S256x327680 : Shape := ⟨2, ![256, 327680]⟩
abbrev S327680x512 : Shape := ⟨2, ![327680, 512]⟩
abbrev S1x512 : Shape := ⟨2, ![1, 512]⟩
abbrev S512x2 : Shape := ⟨2, ![512, 2]⟩
abbrev S256x2 : Shape := ⟨2, ![256, 2]⟩
abbrev S1x2 : Shape := ⟨2, ![1, 2]⟩

abbrev nBuf : Space → Nat
  | .hbm => 45
  | .vmem => 0
  | .smem => 0
  | _ => 0

abbrev bufTy : (tb : Table) → Fin (tcTables nBuf tb) → BufTy
  | .hbm, ⟨0, _⟩ => ⟨S256x512, .i32⟩
  | .hbm, ⟨1, _⟩ => ⟨S256x512, .i32⟩
  | .hbm, ⟨2, _⟩ => ⟨S50000x640, .f32⟩
  | .hbm, ⟨3, _⟩ => ⟨S512x327680, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S2x512, .f32⟩
  | .hbm, ⟨8, _⟩ => ⟨S2, .f32⟩
  | .hbm, ⟨9, _⟩ => ⟨S256x512, .i32⟩
  | .hbm, ⟨10, _⟩ => ⟨S_, .i32⟩
  | .hbm, ⟨11, _⟩ => ⟨S256x512, .i32⟩
  | .hbm, ⟨12, _⟩ => ⟨S256x512, .i1⟩
  | .hbm, ⟨13, _⟩ => ⟨S_, .i32⟩
  | .hbm, ⟨14, _⟩ => ⟨S256x512, .i32⟩
  | .hbm, ⟨15, _⟩ => ⟨S256x512, .i32⟩
  | .hbm, ⟨16, _⟩ => ⟨S256x512, .i32⟩
  | .hbm, ⟨17, _⟩ => ⟨S256x512x1, .i32⟩
  | .hbm, ⟨18, _⟩ => ⟨S256x512x640, .f32⟩
  | .hbm, ⟨19, _⟩ => ⟨S256x512x1, .i32⟩
  | .hbm, ⟨20, _⟩ => ⟨S256x512x1, .f32⟩
  | .hbm, ⟨21, _⟩ => ⟨S256x512x640, .f32⟩
  | .hbm, ⟨22, _⟩ => ⟨S256x512x640, .f32⟩
  | .hbm, ⟨23, _⟩ => ⟨S256x327680, .f32⟩
  | .hbm, ⟨24, _⟩ => ⟨S327680x512, .f32⟩
  | .hbm, ⟨25, _⟩ => ⟨S256x512, .f32⟩
  | .hbm, ⟨26, _⟩ => ⟨S1x512, .f32⟩
  | .hbm, ⟨27, _⟩ => ⟨S256x512, .f32⟩
  | .hbm, ⟨28, _⟩ => ⟨S256x512, .f32⟩
  | .hbm, ⟨29, _⟩ => ⟨S_, .f32⟩
  | .hbm, ⟨30, _⟩ => ⟨S256x512, .f32⟩
  | .hbm, ⟨31, _⟩ => ⟨S256x512, .f32⟩
  | .hbm, ⟨32, _⟩ => ⟨S512x512, .f32⟩
  | .hbm, ⟨33, _⟩ => ⟨S256x512, .f32⟩
  | .hbm, ⟨34, _⟩ => ⟨S1x512, .f32⟩
  | .hbm, ⟨35, _⟩ => ⟨S256x512, .f32⟩
  | .hbm, ⟨36, _⟩ => ⟨S256x512, .f32⟩
  | .hbm, ⟨37, _⟩ => ⟨S_, .f32⟩
  | .hbm, ⟨38, _⟩ => ⟨S256x512, .f32⟩
  | .hbm, ⟨39, _⟩ => ⟨S256x512, .f32⟩
  | .hbm, ⟨40, _⟩ => ⟨S512x2, .f32⟩
  | .hbm, ⟨41, _⟩ => ⟨S256x2, .f32⟩
  | .hbm, ⟨42, _⟩ => ⟨S1x2, .f32⟩
  | .hbm, ⟨43, _⟩ => ⟨S256x2, .f32⟩
  | .hbm, ⟨44, _⟩ => ⟨S256x2, .f32⟩
  | _, _ => ⟨S256x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call1_cst : Ref sig .tc := ⟨.hbm, 37, rfl⟩
abbrev main_call1_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  bcast_S_S256x512 : S_.BroadcastsInDim S256x512 (![] : Fin 0 → Fin S256x512.rank)
  bcast_S256x512_S256x512x1_0_1 : S256x512.BroadcastsInDim S256x512x1 (![0, 1] : Fin 2 → Fin S256x512x1.rank)
  bcast_S256x512x1_S256x512x640_0_1_2 : S256x512x1.BroadcastsInDim S256x512x640 (![0, 1, 2] : Fin 3 → Fin S256x512x640.rank)
  shapeCasts_S256x512x640_S256x327680 : S256x512x640.ShapeCasts S256x327680
  transposes_S512x327680_S327680x512_1_0 : S512x327680.Transposes [1, 0] S327680x512
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  transposes_S512x512_S512x512_1_0 : S512x512.Transposes [1, 0] S512x512
  transposes_S2x512_S512x2_1_0 : S2x512.Transposes [1, 0] S512x2
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  gather_S50000x640_S256x512x1_S256x512x640_2_0_n_n_0_2_1640_wf : GatherDims.WF S50000x640 S256x512x1 S256x512x640 [2] [0] [] [0] [] 2 ![1, 640]
  dot_S256x327680_S327680x512_S256x512_1_0_0_1_n_n_wf : DotDims.WF S256x327680 S327680x512 S256x512 [1] [0] [0] [1] [] []
  dot_S256x512_S512x512_S256x512_1_0_0_1_n_n_wf : DotDims.WF S256x512 S512x512 S256x512 [1] [0] [0] [1] [] []
  dot_S256x512_S512x2_S256x2_1_0_0_1_n_n_wf : DotDims.WF S256x512 S512x2 S256x2 [1] [0] [0] [1] [] []

variable [Facts₀]

def gather_S50000x640_S256x512x1_S256x512x640_2_0_n_n_0_2_1640 : GatherDims S50000x640 S256x512x1 S256x512x640 where
  offsetDims := [2]
  collapsedSliceDims := [0]
  operandBatchingDims := []
  startIndicesBatchingDims := []
  startIndexMap := [0]
  indexVectorDim := 2
  sliceSizes := ![1, 640]
  wf := gather_S50000x640_S256x512x1_S256x512x640_2_0_n_n_0_2_1640_wf
def dot_S256x327680_S327680x512_S256x512_1_0_0_1_n_n : DotDims S256x327680 S327680x512 S256x512 where
  lhsContracting := [1]
  rhsContracting := [0]
  lhsNonContracting := [0]
  rhsNonContracting := [1]
  lhsBatch := []
  rhsBatch := []
  wf := dot_S256x327680_S327680x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x2_S256x2_1_0_0_1_n_n : DotDims S256x512 S512x2 S256x2 where
  lhsContracting := [1]
  rhsContracting := [0]
  lhsNonContracting := [0]
  rhsNonContracting := [1]
  lhsBatch := []
  rhsBatch := []
  wf := dot_S256x512_S512x2_S256x2_1_0_0_1_n_n_wf

class Facts : Prop extends Facts₀ where

variable [Facts]
-- ==== Proof.Layer1RunsB.lean ====
/-
  The first pallas_call (the first layer's contraction) at one grid point, in its three cases.

  The grid is 2 × 20: a point's second coordinate is its slab within a run of twenty. At the first slab of a run the
  body clears the accumulator it keeps in a scratch buffer; at every slab it adds the product of the point's block of
  the row matrix with the transpose of the point's block of the weights; at the last slab it also copies the accumulator,
  under a leading unit axis, into the output block. So a point is in one of three cases — first slab, middle slab,
  last slab — decided by the point's number modulo 20, and in each case the body, run on whole staging buffers, leaves
  the inputs as they were and the scratch (in the last case also the output buffer) rewritten whole.

  Generic in the float instance.
-/
import proofs.«139085_j2130303779207_2_alg».proof.Proof.Gen.Kernel.Launch
import proofs.«139085_j2130303779207_2_alg».proof.Proof.Gen.Kernel.Skeleton
import proofs.«139085_j2130303779207_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first layer's kernel at one grid point: what its three control cases share

The grid is 2 × 20, walked row-major: point `t` works on slab `t mod 20` of half `t / 20` of the contraction.
The kernel keeps a 256 × 512 accumulator between points. At a half's first slab it zeroes the accumulator, at
every slab it adds the slab's product to it, and at a half's last slab it copies it to the output block. -/

section Entry
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The slab of `x` staged at point `t` is its block there, fetched at that point or not, for any proof data
    over the entry contents that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the slab of `W1`. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Entry

/-! ## Which slab a point is on -/

/-- The kernel's test "this is the half's first slab" (grid coordinate 1 is 0), as it computes it. -/
abbrev atFirstSlab (i : grid0.Coords) : Prop :=
  (Scalar.cmpi .ne (Scalar.extui (Scalar.cmpi .eq (BitVec.ofNat 32 (i 1).val) 0#32)) 0#32) = 1#1
/-- It holds exactly at the points 0 and 20. -/
theorem atFirstSlab_iff : ∀ t : Fin cfg0.N, atFirstSlab (grid0.coords t) ↔ t.val % 20 = 0 :=
  (by decide +kernel : ∀ t : Fin grid0.N, atFirstSlab (grid0.coords t) ↔ t.val % 20 = 0)

/-- The kernel's test "this is the half's last slab" (grid coordinate 1 is 19). -/
abbrev atLastSlab (i : grid0.Coords) : Prop := k0_cond2 i = 1#1
/-- It holds exactly at the points 19 and 39. -/
theorem atLastSlab_iff : ∀ t : Fin cfg0.N, atLastSlab (grid0.coords t) ↔ t.val % 20 = 19 :=
  (by decide +kernel : ∀ t : Fin grid0.N, atLastSlab (grid0.coords t) ↔ t.val % 20 = 19)

/-! ## Where the output window is left alone -/

/-- The two input windows are in use at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- At a first slab that is not a last one the output block is neither stored into nor written back. -/
theorem idleAt0_2_first : ∀ t : Fin cfg0.N, atFirstSlab (grid0.coords t) → ¬atLastSlab (grid0.coords t) → cfg0.idle 2 (grid0.coords t) = true := by decide +kernel
theorem noFlush0_2_first : ∀ t : Fin cfg0.N, atFirstSlab (grid0.coords t) → ¬atLastSlab (grid0.coords t) → (cfg0.win 2).flush t = false := by decide +kernel
/-- Nor at a slab strictly inside a half. -/
theorem idleAt0_2_mid : ∀ t : Fin cfg0.N, ¬atFirstSlab (grid0.coords t) → ¬atLastSlab (grid0.coords t) → cfg0.idle 2 (grid0.coords t) = true := by decide +kernel
theorem noFlush0_2_mid : ∀ t : Fin cfg0.N, ¬atFirstSlab (grid0.coords t) → ¬atLastSlab (grid0.coords t) → (cfg0.win 2).flush t = false := by decide +kernel
/-- At a last slab the output block is stored. -/
theorem liveAt0_2_last : ∀ t : Fin cfg0.N, ¬atFirstSlab (grid0.coords t) → atLastSlab (grid0.coords t) → cfg0.idle 2 (grid0.coords t) = false := by decide +kernel

/-! ## The memrefs the body is called on -/

/-- One staging buffer of the output window, through which its contents are stated. -/
abbrev VO0_2 : View sig .tc .vmem S1x256x512 .f32 := (Memref.whole cc0_stg2_0 : Memref sig .tc .vmem S1x256x512 .f32).view
/-- Each window's current staging memref at point `t`, as the pipeline passes it, and that it is a whole buffer. -/
abbrev ms0_0 (t : Fin cfg0.N) : Memref sig .tc .vmem S256x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x512 .f32 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows. -/
abbrev scM0_0 : Memref sig .tc .vmem S256x512 .f32 := Memref.whole cc0_scratch0
/-- The accumulator as a view: what it holds is stated through it. -/
abbrev VS0_0 : View sig .tc .vmem S256x512 .f32 := scM0_0.view

/-- The second kernel's seven staging buffers, each whole at some contents: scoped buffers this region never touches. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f))

/-- What the region is entered with beside its windows: the accumulator owned at some contents, the second kernel's
    staging buffers, and the generator register at some state. -/
theorem PhiA0_eq (c : Dev nD) :
    (Pipeline.ΦA spec0 c : sProp 𝕄)
      = iprop(iprop((∃ d, owns (c : Thread nD τ) scM0_0 fullShare d) ∗ otherScoped (F := F) c) ∗ (∃ r, prngReg c r)) := by
  unfold Pipeline.ΦA; rw [scopedRest0_eq]; simp only [scM0_0, owns_whole]; unfold otherScoped; try rfl

/-! ## The body's run, case by case

Each run is a pair of piece lists — what the body's stores leave in the output block and in the accumulator, last
store first — with the proof that on whole memrefs the body runs to a continuation holding the inputs as they were
and each stored buffer with those pieces written. The pieces are found by running the body symbolically. -/

set_option maxHeartbeats 1000000 in
/-- CASE A, a half's first slab (and not its last): the accumulator, whatever it held, is zeroed and then receives
    the slab's product; the output block is handed back untouched. -/
noncomputable def kernelRun0_A (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : atFirstSlab i) (hc1 : ¬atLastSlab i)
    (x0 : Vec F S256x8192 .bf16) (x1 : Vec F S512x8192 .bf16) :
    Σ' (L2 : List (View.Piece (Elt F) S1x256x512 .f32)), { LS0 : List (View.Piece (Elt F) S256x512 .f32) //
      ∀ (xi2 : Vec F S1x256x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__layer1_kernel i arg2 harg2 arg3 harg3 arg4 harg4 arg5 harg5) K } := by
  refine ⟨[], ?_, fun xi2 E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE B, a slab strictly inside a half: the accumulator, holding `xs`, receives `xs` plus the slab's product; the
    output block is handed back untouched. -/
noncomputable def kernelRun0_B (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : ¬atLastSlab i)
    (x0 : Vec F S256x8192 .bf16) (x1 : Vec F S512x8192 .bf16) (xs : Vec F S256x512 .f32) :
    Σ' (L2 : List (View.Piece (Elt F) S1x256x512 .f32)), { LS0 : List (View.Piece (Elt F) S256x512 .f32) //
      ∀ (xi2 : Vec F S1x256x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__layer1_kernel i arg2 harg2 arg3 harg3 arg4 harg4 arg5 harg5) K } := by
  refine ⟨[], ?_, fun xi2 E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE C, a half's last slab (and not its first): the accumulator, holding `xs`, receives `xs` plus the slab's
    product, and the output block, whatever it held, receives a copy of that. -/
noncomputable def kernelRun0_C (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : atLastSlab i)
    (x0 : Vec F S256x8192 .bf16) (x1 : Vec F S512x8192 .bf16) (xs : Vec F S256x512 .f32) :
    Σ' (L2 : List (View.Piece (Elt F) S1x256x512 .f32)), { LS0 : List (View.Piece (Elt F) S256x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__layer1_kernel i arg2 harg2 arg3 harg3 arg4 harg4 arg5 harg5) K } := by
  refine ⟨?_, ?_, fun E K => ?run⟩
  case run =>
    simp only [cc0__layer1_kernel_eq_skeleton]; unfold cc0__layer1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.Layer1BodyB.lean ====
/-
  What the first layer's region holds point by point, and the body's obligation to the pipeline.

  After point n the scratch accumulator holds the product of the point's two blocks added to what the point before
  left — or to zero at the first slab of a run — and the output buffer, at a run's last slab, that accumulator under a
  leading unit axis; at the other points the output window is idle and is not written back. The region's invariant
  keeps the scratch at the previous point's accumulator (at anything before the first point) beside the other scoped
  buffers and the generator register, all untouched.

  Generic in the float instance.
-/
import proofs.«139085_j2130303779207_2_alg».proof.Proof.Layer1RunsB
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first layer's kernel over its grid: what each point leaves, the proof data, the body obligation -/

/-! ## What each case leaves in the output block and in the accumulator -/

/-- Case A stores nothing into the output block: no pieces, read back over arbitrary contents — a placeholder nothing
    consults, the block being neither written back nor read at the next point. -/
def out0_A_2 (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : atFirstSlab i) (hc1 : ¬atLastSlab i)
    (x0 : Vec F S256x8192 .bf16) (x1 : Vec F S512x8192 .bf16) : Vec F S1x256x512 .f32 :=
  VO0_2.read (Elt F) (VO0_2.writes (Elt F) VO0_2.junk (kernelRun0_A c i arg2 harg2 arg3 harg3 arg4 harg4 arg5 harg5 hc0 hc1 x0 x1).1)

/-- Case A's stores into the accumulator cover it (each is the whole 256 × 512 rectangle). -/
theorem scover0_A_0 (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : atFirstSlab i) (hc1 : ¬atLastSlab i)
    (x0 : Vec F S256x8192 .bf16) (x1 : Vec F S512x8192 .bf16) (y : S256x512.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S256x512.size (by sl_kernel_rfl) y

/-- What case A leaves in the accumulator: its pieces read back over arbitrary contents. -/
def sout0_A_0 (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : atFirstSlab i) (hc1 : ¬atLastSlab i)
    (x0 : Vec F S256x8192 .bf16) (x1 : Vec F S512x8192 .bf16) : Vec F S256x512 .f32 :=
  VS0_0.read (Elt F) (VS0_0.writes (Elt F) VS0_0.junk (kernelRun0_A c i arg2 harg2 arg3 harg3 arg4 harg4 arg5 harg5 hc0 hc1 x0 x1).2.1)

/-- Case B stores nothing into the output block either. -/
def out0_B_2 (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : ¬atLastSlab i)
    (x0 : Vec F S256x8192 .bf16) (x1 : Vec F S512x8192 .bf16) (xs : Vec F S256x512 .f32) : Vec F S1x256x512 .f32 :=
  VO0_2.read (Elt F) (VO0_2.writes (Elt F) VO0_2.junk (kernelRun0_B c i arg2 harg2 arg3 harg3 arg4 harg4 arg5 harg5 hc0 hc1 x0 x1 xs).1)

/-- Case B's store into the accumulator covers it. -/
theorem scover0_B_0 (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : ¬atLastSlab i)
    (x0 : Vec F S256x8192 .bf16) (x1 : Vec F S512x8192 .bf16) (xs : Vec F S256x512 .f32) (y : S256x512.Idx) :
    ∃ pc ∈ (kernelRun0_B c i arg2 harg2 arg3 harg3 arg4 harg4 arg5 harg5 hc0 hc1 x0 x1 xs).2.1, y ∈ pc.1.set :=
  View.cover_of_tiledL (kernelRun0_B c i arg2 harg2 arg3 harg3 arg4 harg4 arg5 harg5 hc0 hc1 x0 x1 xs).2.1 S256x512.size (by sl_kernel_rfl) y

/-- What case B leaves in the accumulator. -/
def sout0_B_0 (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : ¬atLastSlab i)
    (x0 : Vec F S256x8192 .bf16) (x1 : Vec F S512x8192 .bf16) (xs : Vec F S256x512 .f32) : Vec F S256x512 .f32 :=
  VS0_0.read (Elt F) (VS0_0.writes (Elt F) VS0_0.junk (kernelRun0_B c i arg2 harg2 arg3 harg3 arg4 harg4 arg5 harg5 hc0 hc1 x0 x1 xs).2.1)

/-- Case C's one store into the output block covers it. -/
theorem cover0_C_2 (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : atLastSlab i)
    (x0 : Vec F S256x8192 .bf16) (x1 : Vec F S512x8192 .bf16) (xs : Vec F S256x512 .f32) (y : S1x256x512.Idx) :
    ∃ pc ∈ (kernelRun0_C c i arg2 harg2 arg3 harg3 arg4 harg4 arg5 harg5 hc0 hc1 x0 x1 xs).1, y ∈ pc.1.set :=
  View.cover_of_tiledL (kernelRun0_C c i arg2 harg2 arg3 harg3 arg4 harg4 arg5 harg5 hc0 hc1 x0 x1 xs).1 S1x256x512.size (by sl_kernel_rfl) y

/-- What case C leaves in the output block. -/
def out0_C_2 (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : atLastSlab i)
    (x0 : Vec F S256x8192 .bf16) (x1 : Vec F S512x8192 .bf16) (xs : Vec F S256x512 .f32) : Vec F S1x256x512 .f32 :=
  VO0_2.read (Elt F) (VO0_2.writes (Elt F) VO0_2.junk (kernelRun0_C c i arg2 harg2 arg3 harg3 arg4 harg4 arg5 harg5 hc0 hc1 x0 x1 xs).1)

/-- Case C's store into the accumulator covers it. -/
theorem scover0_C_0 (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : atLastSlab i)
    (x0 : Vec F S256x8192 .bf16) (x1 : Vec F S512x8192 .bf16) (xs : Vec F S256x512 .f32) (y : S256x512.Idx) :
    ∃ pc ∈ (kernelRun0_C c i arg2 harg2 arg3 harg3 arg4 harg4 arg5 harg5 hc0 hc1 x0 x1 xs).2.1, y ∈ pc.1.set :=
  View.cover_of_tiledL (kernelRun0_C c i arg2 harg2 arg3 harg3 arg4 harg4 arg5 harg5 hc0 hc1 x0 x1 xs).2.1 S256x512.size (by sl_kernel_rfl) y

/-- What case C leaves in the accumulator. -/
def sout0_C_0 (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : atLastSlab i)
    (x0 : Vec F S256x8192 .bf16) (x1 : Vec F S512x8192 .bf16) (xs : Vec F S256x512 .f32) : Vec F S256x512 .f32 :=
  VS0_0.read (Elt F) (VS0_0.writes (Elt F) VS0_0.junk (kernelRun0_C c i arg2 harg2 arg3 harg3 arg4 harg4 arg5 harg5 hc0 hc1 x0 x1 xs).2.1)

/-! ## The cases' contents as the kernel's arithmetic

Every load and store of the body goes through the whole rectangle of its buffer at zero offsets, so a load reads the
buffer's contents and the last store leaves its payload. -/

/-- The zero offsets of a rank-2 and of a rank-3 rectangle, as constant functions. -/
theorem zero2 : (![0, 0] : Fin 2 → ℕ) = fun _ => 0 := by funext a; fin_cases a <;> rfl
theorem zero3 : (![0, 0, 0] : Fin 3 → ℕ) = fun _ => 0 := by funext a; fin_cases a <;> rfl

/-- A first slab leaves in the accumulator the slab's product added to zeros. -/
theorem scratch_A (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : atFirstSlab i) (hc1 : ¬atLastSlab i)
    (x0 : Vec F S256x8192 .bf16) (x1 : Vec F S512x8192 .bf16) :
    sout0_A_0 c i arg2 harg2 arg3 harg3 arg4 harg4 arg5 harg5 hc0 hc1 x0 x1 = k0_pay2 (k0_pay1 (F := F)) x0 x1 := by
  unfold sout0_A_0
  rw [View.read_writes_eq_canon _ _ _ (scover0_A_0 c i arg2 harg2 arg3 harg3 arg4 harg4 arg5 harg5 hc0 hc1 x0 x1)]
  unfold kernelRun0_A; dsimp only; sl_unfold_words
  rw [View.canon_cons_unit_zero zero2]
  rw [View.readCov_unit_zero _ zero2]
  simp only [View.readAt_eq_ld, harg2.read_unread, harg3.read_unread, View.ld_unit_zero (S := S256x8192) zero2, View.ld_unit_zero (S := S512x8192) zero2]

/-- An inner slab leaves in the accumulator the slab's product added to what it held. -/
theorem scratch_B (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : ¬atLastSlab i)
    (x0 : Vec F S256x8192 .bf16) (x1 : Vec F S512x8192 .bf16) (xs : Vec F S256x512 .f32) :
    sout0_B_0 c i arg2 harg2 arg3 harg3 arg4 harg4 arg5 harg5 hc0 hc1 x0 x1 xs = k0_pay2 xs x0 x1 := by
  unfold sout0_B_0
  rw [View.read_writes_eq_canon _ _ _ (scover0_B_0 c i arg2 harg2 arg3 harg3 arg4 harg4 arg5 harg5 hc0 hc1 x0 x1 xs)]
  unfold kernelRun0_B; dsimp only; sl_unfold_words
  rw [View.canon_unit_zero zero2]
  simp only [View.readAt_eq_ld, harg2.read_unread, harg3.read_unread, harg5.read_unread, View.ld_unit_zero (S := S256x8192) zero2, View.ld_unit_zero (S := S512x8192) zero2, View.ld_unit_zero (S := S256x512) zero2]

/-- So does a last slab, -/
theorem scratch_C (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : atLastSlab i)
    (x0 : Vec F S256x8192 .bf16) (x1 : Vec F S512x8192 .bf16) (xs : Vec F S256x512 .f32) :
    sout0_C_0 c i arg2 harg2 arg3 harg3 arg4 harg4 arg5 harg5 hc0 hc1 x0 x1 xs = k0_pay2 xs x0 x1 := by
  unfold sout0_C_0
  rw [View.read_writes_eq_canon _ _ _ (scover0_C_0 c i arg2 harg2 arg3 harg3 arg4 harg4 arg5 harg5 hc0 hc1 x0 x1 xs)]
  unfold kernelRun0_C; dsimp only; sl_unfold_words
  rw [View.canon_unit_zero zero2]
  simp only [View.readAt_eq_ld, harg2.read_unread, harg3.read_unread, harg5.read_unread, View.ld_unit_zero (S := S256x8192) zero2, View.ld_unit_zero (S := S512x8192) zero2, View.ld_unit_zero (S := S256x512) zero2]

/-- and it leaves in the output block that sum, reshaped. -/
theorem out_C (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : atLastSlab i)
    (x0 : Vec F S256x8192 .bf16) (x1 : Vec F S512x8192 .bf16) (xs : Vec F S256x512 .f32) :
    out0_C_2 c i arg2 harg2 arg3 harg3 arg4 harg4 arg5 harg5 hc0 hc1 x0 x1 xs = k0_pay3 (k0_pay2 xs x0 x1) := by
  unfold out0_C_2
  rw [View.read_writes_eq_canon _ _ _ (cover0_C_2 c i arg2 harg2 arg3 harg3 arg4 harg4 arg5 harg5 hc0 hc1 x0 x1 xs)]
  unfold kernelRun0_C; dsimp only; sl_unfold_words
  rw [View.canon_unit_zero zero3]
  rw [View.readCov_unit_zero _ zero2]
  simp only [View.readAt_eq_ld, harg2.read_unread, harg3.read_unread, harg5.read_unread, View.ld_unit_zero (S := S256x8192) zero2, View.ld_unit_zero (S := S512x8192) zero2, View.ld_unit_zero (S := S256x512) zero2]

section Entry
-- the TensorCore's buffer contents when the region is entered
variable (V : (c : Dev nD) → (b : Ref sig .tc) → Buf (Elt F) ((c : Thread nD τ).loc b))

/-! ## What the output block and the accumulator hold after each point -/

/-- From a point's residue mod 20 to the kernel's two tests there. -/
theorem first_of {t : Fin cfg0.N} (h : t.val % 20 = 0) : atFirstSlab (grid0.coords t) := (atFirstSlab_iff t).mpr h
theorem notFirst_of {t : Fin cfg0.N} (h : ¬t.val % 20 = 0) : ¬atFirstSlab (grid0.coords t) := fun h' => h ((atFirstSlab_iff t).mp h')
theorem last_of {t : Fin cfg0.N} (h : t.val % 20 = 19) : atLastSlab (grid0.coords t) := (atLastSlab_iff t).mpr h
theorem notLast_of {t : Fin cfg0.N} (h : ¬t.val % 20 = 19) : ¬atLastSlab (grid0.coords t) := fun h' => h ((atLastSlab_iff t).mp h')

/-- What a first slab's point leaves (output block, accumulator): case A at the point's memrefs and slabs. -/
def leftA (c : Dev nD) (t : Fin cfg0.N) (h0 : t.val % 20 = 0) (h1 : ¬t.val % 20 = 19) : Vec F S1x256x512 .f32 × Vec F S256x512 .f32 :=
  (out0_A_2 c (grid0.coords t) (ms0_0 t) (hs0_0 t) (ms0_1 t) (hs0_1 t) (ms0_2 t) (hs0_2 t) scM0_0 (Memref.isWhole_whole _) (first_of h0) (notLast_of h1) (iblk0 V c 0 t) (iblk0 V c 1 t),
   sout0_A_0 c (grid0.coords t) (ms0_0 t) (hs0_0 t) (ms0_1 t) (hs0_1 t) (ms0_2 t) (hs0_2 t) scM0_0 (Memref.isWhole_whole _) (first_of h0) (notLast_of h1) (iblk0 V c 0 t) (iblk0 V c 1 t))

/-- What an inner slab's point leaves, the accumulator holding `xs` before it: case B. -/
def leftB (c : Dev nD) (t : Fin cfg0.N) (h0 : ¬t.val % 20 = 0) (h1 : ¬t.val % 20 = 19) (xs : Vec F S256x512 .f32) : Vec F S1x256x512 .f32 × Vec F S256x512 .f32 :=
  (out0_B_2 c (grid0.coords t) (ms0_0 t) (hs0_0 t) (ms0_1 t) (hs0_1 t) (ms0_2 t) (hs0_2 t) scM0_0 (Memref.isWhole_whole _) (notFirst_of h0) (notLast_of h1) (iblk0 V c 0 t) (iblk0 V c 1 t) xs,
   sout0_B_0 c (grid0.coords t) (ms0_0 t) (hs0_0 t) (ms0_1 t) (hs0_1 t) (ms0_2 t) (hs0_2 t) scM0_0 (Memref.isWhole_whole _) (notFirst_of h0) (notLast_of h1) (iblk0 V c 0 t) (iblk0 V c 1 t) xs)

/-- What a last slab's point leaves, the accumulator holding `xs` before it: case C. -/
def leftC (c : Dev nD) (t : Fin cfg0.N) (h0 : ¬t.val % 20 = 0) (h1 : t.val % 20 = 19) (xs : Vec F S256x512 .f32) : Vec F S1x256x512 .f32 × Vec F S256x512 .f32 :=
  (out0_C_2 c (grid0.coords t) (ms0_0 t) (hs0_0 t) (ms0_1 t) (hs0_1 t) (ms0_2 t) (hs0_2 t) scM0_0 (Memref.isWhole_whole _) (notFirst_of h0) (last_of h1) (iblk0 V c 0 t) (iblk0 V c 1 t) xs,
   sout0_C_0 c (grid0.coords t) (ms0_0 t) (hs0_0 t) (ms0_1 t) (hs0_1 t) (ms0_2 t) (hs0_2 t) scM0_0 (Memref.isWhole_whole _) (notFirst_of h0) (last_of h1) (iblk0 V c 0 t) (iblk0 V c 1 t) xs)

/-- THE ACCUMULATION. The output window's staging buffer and the accumulator after the body at position `n`: the case
    the residue of `n` mod 20 selects, run on the point's slabs; off a first slab the accumulator starts from what
    position `n - 1` left in it. No point is both a first and a last slab. -/
def outsAt0 (c : Dev nD) : (n : ℕ) → n < cfg0.N → Vec F S1x256x512 .f32 × Vec F S256x512 .f32
  | 0, hn => leftA V c ⟨0, hn⟩ (Nat.zero_mod _) (show ¬(0 % 20 = 19) from by decide)
  | n + 1, hn =>
    if h0 : (n + 1) % 20 = 0 then
      if h1 : (n + 1) % 20 = 19 then False.elim (by omega)
      else leftA V c ⟨n + 1, hn⟩ h0 h1
    else
      if h1 : (n + 1) % 20 = 19 then leftC V c ⟨n + 1, hn⟩ h0 h1 (outsAt0 c n (Nat.lt_of_succ_lt hn)).2
      else leftB V c ⟨n + 1, hn⟩ h0 h1 (outsAt0 c n (Nat.lt_of_succ_lt hn)).2

/-- At a first slab. -/
theorem outsAt0_A (c : Dev nD) (t : Fin cfg0.N) (h0 : t.val % 20 = 0) (h1 : ¬t.val % 20 = 19) :
    outsAt0 V c t.val t.isLt = leftA V c t h0 h1 := by
  obtain ⟨n, hn⟩ := t
  cases n with
  | zero => exact rfl
  | succ n => exact (dif_pos h0).trans ((dif_neg h1).trans rfl)

/-- At an inner slab: over what the point before left in the accumulator. -/
theorem outsAt0_B (c : Dev nD) (t : Fin cfg0.N) (h0 : ¬t.val % 20 = 0) (h1 : ¬t.val % 20 = 19) :
    outsAt0 V c t.val t.isLt = leftB V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

/-- At a last slab: over what the point before left in the accumulator. -/
theorem outsAt0_C (c : Dev nD) (t : Fin cfg0.N) (h0 : ¬t.val % 20 = 0) (h1 : t.val % 20 = 19) :
    outsAt0 V c t.val t.isLt = leftC V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant between points -/

/-- Before position `n`: at the very first point what the region was entered with (the accumulator at anything);
    afterwards the accumulator owned at what position `n - 1` left in it, the second kernel's staging buffers and the
    generator register carried along untouched. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ otherScoped (F := F) c) ∗ (∃ r, prngReg c r)) := by
  cases n with
  | zero => exact absurd rfl hz
  | succ n => rfl

/-! ## The pipeline's proof data -/

/-- The proof data of the first layer's pipeline on core `c`: the arrays as the region finds them; after the body at
    point `t` each input's buffer at its slab and the output's at `outsAt0`'s first component; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its slab at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their slabs; the point's residue mod 20 says which case it is in, and
    that case's run applies. The invariant hands the body the accumulator — at anything at the very first point, else at
    what the point before left — and takes it back at this point's contents, the case's stores covering it. An output block
    the case leaves alone is handed back as found; at a last slab the one store covers it. Nothing is owed throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 40 := lt_of_lt_of_eq t.isLt (show cfg0.N = 40 from N_0)
  by_cases h0 : t.val % 20 = 0
  · by_cases h1 : t.val % 20 = 19
    · exfalso; omega
    · rw [Dat.leavesExact_idle (dat0 V c) 2 t (idleAt0_2_first t (first_of h0) (notLast_of h1)) (noFlush0_2_first t (first_of h0) (notLast_of h1))]
      rw [outsAt0_A V c t h0 h1]
      unfold leftA sout0_A_0; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩⟩
        iapply ((kernelRun0_A c (grid0.coords t) _ _ _ _ _ _ _ _ (first_of h0) (notLast_of h1) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun0_A c (grid0.coords t) _ _ _ _ _ _ _ _ (first_of h0) (notLast_of h1) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
  · by_cases h1 : t.val % 20 = 19
    · rw [show (dat0 V c).leavesExact 2 t = owns (c : Thread nD τ) (ms0_2 t) fullShare ((dat0 V c).after 2 t) from by
        unfold Dat.leavesExact; rw [liveAt0_2_last t (notFirst_of h0) (last_of h1)], after0_2]
      rw [outsAt0_C V c t h0 h1]
      unfold leftC out0_C_2 sout0_C_0; (try dsimp only)
      have hz : t.val ≠ 0 := by omega
      rw [PhiS_castSucc V c t, PhiS_pos V c _ _ hz]
      iintro ⟨⟨⟨HS0, Hoth⟩, Hg⟩, Ho, ⟨%d0, H0⟩, ⟨%d1, H1⟩, ⟨%d2, H2⟩⟩
      iapply ((kernelRun0_C c (grid0.coords t) _ _ _ _ _ _ _ _ (notFirst_of h0) (last_of h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_mid t (notFirst_of h0) (notLast_of h1)) (noFlush0_2_mid t (notFirst_of h0) (notLast_of h1))]
      rw [outsAt0_B V c t h0 h1]
      unfold leftB sout0_B_0; (try dsimp only)
      have hz : t.val ≠ 0 := by omega
      rw [PhiS_castSucc V c t, PhiS_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ _ _ (notFirst_of h0) (notLast_of h1) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives back what the region was entered with: what the accumulator holds
    is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 40 := N_0; omega)

/-! ## The accumulator and the output block, point by point -/

/-- After point `t` the accumulator holds the point's slab product added to zeros at a first slab, else to what the
    point before left. -/
theorem scratchAt_eq (c : Dev nD) (t : Fin cfg0.N) :
    (outsAt0 V c t.val t.isLt).2 = k0_pay2 (if t.val % 20 = 0 then k0_pay1 (F := F) else (outsAt0 V c (t.val - 1) (by omega)).2) (iblk0 V c 0 t) (iblk0 V c 1 t) := by
  have hN : t.val < 40 := lt_of_lt_of_eq t.isLt (show cfg0.N = 40 from N_0)
  by_cases h0 : t.val % 20 = 0
  · have h1 : ¬t.val % 20 = 19 := by omega
    rw [outsAt0_A V c t h0 h1, if_pos h0]; unfold leftA; dsimp only
    exact scratch_A c (grid0.coords t) (ms0_0 t) (hs0_0 t) (ms0_1 t) (hs0_1 t) (ms0_2 t) (hs0_2 t) scM0_0 (Memref.isWhole_whole _) (first_of h0) (notLast_of h1) (iblk0 V c 0 t) (iblk0 V c 1 t)
  · rw [if_neg h0]
    by_cases h1 : t.val % 20 = 19
    · rw [outsAt0_C V c t h0 h1]; unfold leftC; dsimp only
      exact scratch_C c (grid0.coords t) (ms0_0 t) (hs0_0 t) (ms0_1 t) (hs0_1 t) (ms0_2 t) (hs0_2 t) scM0_0 (Memref.isWhole_whole _) (notFirst_of h0) (last_of h1) (iblk0 V c 0 t) (iblk0 V c 1 t) (outsAt0 V c (t.val - 1) (Nat.lt_of_le_of_lt (Nat.sub_le _ _) t.isLt)).2
    · rw [outsAt0_B V c t h0 h1]; unfold leftB; dsimp only
      exact scratch_B c (grid0.coords t) (ms0_0 t) (hs0_0 t) (ms0_1 t) (hs0_1 t) (ms0_2 t) (hs0_2 t) scM0_0 (Memref.isWhole_whole _) (notFirst_of h0) (notLast_of h1) (iblk0 V c 0 t) (iblk0 V c 1 t) (outsAt0 V c (t.val - 1) (Nat.lt_of_le_of_lt (Nat.sub_le _ _) t.isLt)).2

/-- At a last slab the output block holds the accumulator's contents, reshaped. -/
theorem outAt_eq (c : Dev nD) (t : Fin cfg0.N) (h : t.val % 20 = 19) :
    (outsAt0 V c t.val t.isLt).1 = k0_pay3 ((outsAt0 V c t.val t.isLt).2) := by
  have h0 : ¬t.val % 20 = 0 := by omega
  rw [outsAt0_C V c t h0 h]; unfold leftC; dsimp only
  exact (out_C c (grid0.coords t) (ms0_0 t) (hs0_0 t) (ms0_1 t) (hs0_1 t) (ms0_2 t) (hs0_2 t) scM0_0 (Memref.isWhole_whole _) (notFirst_of h0) (last_of h) (iblk0 V c 0 t) (iblk0 V c 1 t) (outsAt0 V c (t.val - 1) (Nat.lt_of_le_of_lt (Nat.sub_le _ _) t.isLt)).2).trans
    (congrArg k0_pay3 (scratch_C c (grid0.coords t) (ms0_0 t) (hs0_0 t) (ms0_1 t) (hs0_1 t) (ms0_2 t) (hs0_2 t) scM0_0 (Memref.isWhole_whole _) (notFirst_of h0) (last_of h) (iblk0 V c 0 t) (iblk0 V c 1 t) (outsAt0 V c (t.val - 1) (Nat.lt_of_le_of_lt (Nat.sub_le _ _) t.isLt)).2).symm)

end Entry

end Cert.Kernel.Hand

end
-- ==== Proof.TailBodyB.lean ====
/-
  The second pallas_call (the tail of the perceptron) as the pipeline runs it: one grid point, seven windows.
  Windows 0..5 are inputs (the two partial sums [2,256,512], the bias b1, the weights W2, the bias b2, the
  weights Wp, the bias bp), window 6 is the output [256,2].

  The body reads window 0's buffer through two rectangles of shape [1,256,512] (the two partial sums), reads the
  other five inputs whole, reads the output buffer (and drops what it read) and stores one value, the payload
  k1_pay1 of the seven values read, over the whole output buffer.  So after the body every input buffer is as it
  was and the output buffer holds  tailOut  of the six input blocks, whatever it held before.

  Everything here is generic in the float instance.
-/
import proofs.«139085_j2130303779207_2_alg».proof.Proof.Gen.Kernel.Launch
import proofs.«139085_j2130303779207_2_alg».proof.Proof.Gen.Kernel.Skeleton
import proofs.«139085_j2130303779207_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the tail's region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at the point, fetched there or not, for any proof data
    whose array is the entry contents and whose body leaves the block in place: none of the six inputs is cut or
    ever idle. One statement per window, the window a literal, so that the side conditions are closed by
    evaluation. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The first partial sum: rows [0,1) of the [2,256,512] buffer. -/
abbrev rPart0 : Rect S2x256x512 := Rect.unit (s := S2x256x512) ![0, 0, 0] S1x256x512.size inb_S2x256x512_S1x256x512_0_0_0
/-- The second partial sum: rows [1,2) of the [2,256,512] buffer. -/
abbrev rPart1 : Rect S2x256x512 := Rect.unit (s := S2x256x512) ![1, 0, 0] S1x256x512.size inb_S2x256x512_S1x256x512_1_0_0
/-- The other buffers, whole. -/
abbrev rV512 : Rect S512 := Rect.unit (s := S512) ![0] S512.size inb_S512_S512_0
abbrev rW2 : Rect S512x512 := Rect.unit (s := S512x512) ![0, 0] S512x512.size inb_S512x512_S512x512_0_0
abbrev rWp : Rect S2x512 := Rect.unit (s := S2x512) ![0, 0] S2x512.size inb_S2x512_S2x512_0_0
abbrev rV2 : Rect S2 := Rect.unit (s := S2) ![0] S2.size inb_S2_S2_0
abbrev rOut : Rect S256x2 := Rect.unit (s := S256x2) ![0, 0] S256x2.size inb_S256x2_S256x2_0_0

/-! ## What the body leaves in the output window's buffer -/

/-- The output buffer after the body, from the six input blocks: its one store, over the whole buffer, of the
    payload of the values the loads read. -/
def tailOut (x0 : Vec F S2x256x512 .f32) (x1 : Vec F S512 .f32) (x2 : Vec F S512x512 .bf16) (x3 : Vec F S512 .f32)
    (x4 : Vec F S2x512 .bf16) (x5 : Vec F S2 .f32) : Vec F S256x2 .f32 :=
  View.canon [⟨rOut, k1_pay1 (View.ld x0 rPart0) (View.ld x0 rPart1) (View.ld x1 rV512) (View.ld x2 rW2) (View.ld x3 rV512)
    (View.ld x4 rWp) (View.ld x5 rV2)⟩]

/-- The store tiles the output buffer, so it covers it. -/
theorem cover_tailOut (p0 : Vec F S256x2 .f32) (y : S256x2.Idx) :
    ∃ pc ∈ ([⟨rOut, p0⟩] : List (View.Piece (Elt F) S256x2 .f32)), y ∈ pc.1.set :=
  View.cover_of_tiled [⟨rOut, p0⟩] S256x2.size (by rfl) y

/-! ## The body's triple -/

set_option maxHeartbeats 4000000 in
/-- The tail body on whole staging memrefs, the six inputs' at read contents x0..x5 and the output's at anything, runs
    to the continuation holding the inputs' as they were and the output's at tailOut of the inputs'. -/
theorem sound_tail (c : Dev nD) (E : Set ℕ) (i : grid1.Coords)
    (arg1 : Memref sig .tc .vmem S2x256x512 .f32) (harg1 : arg1.IsWhole) (arg2 : Memref sig .tc .vmem S512 .f32) (harg2 : arg2.IsWhole)
    (arg3 : Memref sig .tc .vmem S512x512 .bf16) (harg3 : arg3.IsWhole) (arg4 : Memref sig .tc .vmem S512 .f32) (harg4 : arg4.IsWhole)
    (arg5 : Memref sig .tc .vmem S2x512 .bf16) (harg5 : arg5.IsWhole) (arg6 : Memref sig .tc .vmem S2 .f32) (harg6 : arg6.IsWhole)
    (arg7 : Memref sig .tc .vmem S256x2 .f32) (harg7 : arg7.IsWhole)
    (x0 : Vec F S2x256x512 .f32) (x1 : Vec F S512 .f32) (x2 : Vec F S512x512 .bf16) (x3 : Vec F S512 .f32)
    (x4 : Vec F S2x512 .bf16) (x5 : Vec F S2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (tailOut x0 x1 x2 x3 x4 x5)) -∗ K ⟨⟩))
      ⊢ wp frame (wpE (defs₀ (F := F)) Variants.none c none) E
          (cc1__tail_kernel i arg1 harg1 arg2 harg2 arg3 harg3 arg4 harg4 arg5 harg5 arg6 harg6 arg7 harg7) K := by
  simp only [cc1__tail_kernel_eq_skeleton]; unfold cc1__tail_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_tailOut _)

/-! ## The pipeline's proof data -/

/-- The proof data of the tail's pipeline on core c: the arrays as the region finds them; after the body each input's
    buffer at its block and the output's at tailOut of the six input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => tailOut (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = tailOut (iblk1 V c 0 t) (iblk1 V c 1 t) (iblk1 V c 2 t) (iblk1 V c 3 t) (iblk1 V c 4 t) (iblk1 V c 5 t) := by
  dsimp only [dat1]

/-- Each input's current staging buffer holds its block at the point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_tail c Set.univ _ _ _ _ _ _ _ _ _ _ _ _ _ _ _ (iblk1 V c 0 t) (iblk1 V c 1 t) (iblk1 V c 2 t) (iblk1 V c 3 t)
    (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.RunB.lean ====
/-
  The whole program's run, for any float instance: the host operations that build the row matrix, then the
  region that contracts it against the first weight matrix in two halves, then the region that adds the
  halves and applies the two small layers. Between the three items a core's unscoped buffers hold known
  contents: as launched; then with the host operations' results; then with the first region's output array
  at what its write-backs leave; then with the second region's. Every weakly fair execution terminates, and
  at the end every unscoped buffer holds the last of these contents — in particular each argument array what
  it was launched with (no item writes one) and the result array what the second region's one block leaves.
-/
import proofs.«139085_j2130303779207_2_alg».proof.Proof.Layer1BodyB
import proofs.«139085_j2130303779207_2_alg».proof.Proof.TailBodyB
import proofs.«139085_j2130303779207_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- As launched. -/
abbrev B0 : Dev nD → Valuation τ sig (Elt F) := fun c b => m ((c : Dev nD), b)
/-- After the host operations: what the first region is entered from. -/
abbrev B1 : Dev nD → Valuation τ sig (Elt F) := fun c => StableHlo.after hostOps0 (B0 m c)
/-- The same, read at the TensorCore's references. -/
abbrev E1 : (c : Dev nD) → (b : Ref sig .tc) → Buf (Elt F) ((c : Thread nD τ).loc b) := fun c b => B1 m c b
/-- After the first region: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- The same, read at the TensorCore's references: what the second region is entered from. -/
abbrev E2 : (c : Dev nD) → (b : Ref sig .tc) → Buf (Elt F) ((c : Thread nD τ).loc b) := fun c b => B2 m c b
theorem left0 (c : Dev nD) (w : Fin cfg0.W) : (dat0 (E1 m) c).arrAt w cfg0.N = E2 m c (Pipeline.arrRef spec0 w) :=
  (B2_arr m c w).symm
theorem kept0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- After the second region. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem left1 (c : Dev nD) (w : Fin cfg1.W) : (dat1 (E2 m) c).arrAt w cfg1.N = E3 m c (Pipeline.arrRef spec1 w) :=
  (B3_arr m c w).symm
theorem kept1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ## The proof data of both pipelines, and what rides beside the buffers -/

/-- No pipeline has a prefetched table. -/
abbrev noTables : (p : Fin 2) → (pcfgs (F := F) p).Adm := fun p => (cfgs p).toPCfg_adm
/-- Each pipeline's proof data at its region's entry contents. -/
def bothDats : (p : Fin 2) → (c : Dev nD) → Dat τ (Elt F) Unit ℕ (UR sig nD τ) ℕ (Pipeline.pin (pcfgs (F := F)) noTables p) c
  | ⟨0, _⟩ => fun c => dat0 (E1 m) c
  | ⟨1, _⟩ => fun c => dat1 (E2 m) c
abbrev noVariants : Variants := Variants.none
/-- No core owes another anything: no level is assigned. -/
abbrev noPairs : GSem nD τ sig → Finset Unit := fun _ => ∅
abbrev noLevels : GSem nD τ sig → Unit → ℕ := fun _ _ => 0
/-- Beside the buffers: the generator register at some state, and the core owing nothing. -/
abbrev Beside (c : Dev nD) : sProp 𝕄 := iprop((∃ r, prngReg c r) ∗ ∃ W, owes (c : Thread nD τ) (0 : CellTallies nD τ sig Unit) W)
/-- The host operations allocate nothing. -/
theorem hostOps0_alloc_none : (hostOps0 : List (HloOp τ sig (Elt F))).Forall fun op => op.fresh = ∅ := by
  simp only [List.Forall]; repeat' constructor
/-- The host stretch as a segment over the unscoped references. -/
abbrev hostSeg : Pipeline.HostSeg (Name := ℕ) (U := UR sig nD τ) (pcfgs (F := F)) defs₀ noVariants noPairs noLevels :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_alloc_none) op h) (B0 m) Beside
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the owes. -/
abbrev AtEnd (c : Dev nD) : sProp 𝕄 := iprop(StableHlo.held (c : Thread nD τ) (Pipeline.ucRefs τ sig) (B3 m c) ∗ ∃ r, prngReg c r)

/-! ## The two regions as segments -/

set_option backward.isDefEq.respectTransparency.types false in
/-- The first region: entered from the buffers at B1, left at B2. Its three arrays are split out of the unscoped
    buffers and put back at the exit contents; the generator register goes into the invariant and comes back; the
    scratch accumulator lives inside the invariant; nothing owed; no semaphore of the kernel's own. -/
def region0 : Pipeline.RegionSeg (pcfgs (F := F)) noTables (bothDats m) () defs₀ noVariants noPairs noLevels 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ noPairs noLevels 0 fun _ _ => rfl
  pre c := iprop(StableHlo.held (c : Thread nD τ) (Pipeline.ucRefs τ sig) (B1 m c) ∗ Beside c)
  post c := iprop(StableHlo.held (c : Thread nD τ) (Pipeline.ucRefs τ sig) (B2 m c) ∗ Beside c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) noTables (bothDats m) launch0.win launch0.arr_whole c
      ((bothDats m 0 c).share_full fun _ => rfl) (E1 m c) fun w => A_eq0 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 0).pre c (fun _ => fullShare) (noTables (F := F) 0).1 ∗ Pipeline.scopedRest spec0 c)
        ⊢ (Pipeline.ΦA spec0 c : sProp 𝕄) from by
      unfold Pipeline.ΦA
      iintro ⟨Hp, -, Hr⟩
      isplitl [Hr]; · iexact Hr
      iexact Hp).trans (hin0 (E1 m) c)
  hout c := by
    rw [Pipeline.ownSems0_none]
    exact (hout0 (E1 m) c).trans (show (Pipeline.ΦA spec0 c : sProp 𝕄) ⊢ iprop((∃ r, prngReg c r) ∗ BI.emp ∗ Pipeline.scopedRest spec0 c) from by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) noTables (Ix := Unit) (Name := ℕ) (U := UR sig nD τ) (Lvl := ℕ)
      launch0.win launch0.arr_whole c (bothDats m) ((bothDats m 0 c).share_full fun _ => rfl)
      (E1 m c) (E2 m c) ((bothDats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the buffers at B2, left at B3; its invariant is the scoped rest and the generator
    register, untouched. -/
def region1 : Pipeline.RegionSeg (pcfgs (F := F)) noTables (bothDats m) () defs₀ noVariants noPairs noLevels 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ noPairs noLevels 1 fun _ _ => rfl
  pre c := iprop(StableHlo.held (c : Thread nD τ) (Pipeline.ucRefs τ sig) (B2 m c) ∗ Beside c)
  post c := iprop(AtEnd m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) noTables (bothDats m) launch1.win launch1.arr_whole c
      ((bothDats m 1 c).share_full fun _ => rfl) (E2 m c) fun w => A_eq1 (E2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (bothDats m 1 c).Φ 0 = Pipeline.ΦA spec1 c from rfl]; unfold Pipeline.ΦA
    iintro ⟨Hp, -, Hr⟩
    isplitl [Hr]; · iexact Hr
    iexact Hp
  hout c := by
    rw [Pipeline.ownSems0_none, show (bothDats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (bothDats m) ((bothDats m 1 c).share_full fun _ => rfl)
      (E2 m c) (E3 m c) ((bothDats m 1 c).arrAt · cfg1.N) (left1 m c) (kept1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three items, and the launch -/

abbrev items : List (Pipeline.Seg (pcfgs (F := F)) noTables (bothDats m) () defs₀ noVariants noPairs noLevels) :=
  [ .host (hostSeg m), .region (region0 m), .region (region1 m) ]

/-- The printed program is the run of the three items. -/
theorem main_items (c : Dev nD) : main (F := F) c = Pipeline.Seg.run (items m) := (main_chain c).trans (by chain_rfl)

set_option backward.isDefEq.respectTransparency.types false in
/-- From any memory with zero counters every weakly fair execution terminates, nothing faulting, and at the end every
    unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) noTables (bothDats m) () cellOf_inj emb₁ defs₀ noVariants noPairs noLevels m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Beside c)) (Tₙ := AtEnd m)
    (hch := ⟨fun _ => .rfl, fun _ => .rfl, fun _ => .rfl, fun _ => .rfl⟩)
    (hinit := by
      refine Pipeline.initEach noPairs noLevels fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-! ## What the run says of the arguments and of the result -/

/-- An argument no window stages is as launched: no host operation writes it, no region touches it. -/
theorem last_arg0 (c : Dev nD) : B3 m c (Proc.devRef .tc main_arg0) = m ((c : Thread nD τ).loc main_arg0) :=
  (B3_of_ne m c main_arg0 (by decide)).trans ((B2_of_ne m c main_arg0 (by decide)).trans (V1_of m c main_arg0 (by decide)))
theorem last_arg1 (c : Dev nD) : B3 m c (Proc.devRef .tc main_arg1) = m ((c : Thread nD τ).loc main_arg1) :=
  (B3_of_ne m c main_arg1 (by decide)).trans ((B2_of_ne m c main_arg1 (by decide)).trans (V1_of m c main_arg1 (by decide)))
theorem last_arg2 (c : Dev nD) : B3 m c (Proc.devRef .tc main_arg2) = m ((c : Thread nD τ).loc main_arg2) :=
  (B3_of_ne m c main_arg2 (by decide)).trans ((B2_of_ne m c main_arg2 (by decide)).trans (V1_of m c main_arg2 (by decide)))
theorem last_arg3 (c : Dev nD) : B3 m c (Proc.devRef .tc main_arg3) = m ((c : Thread nD τ).loc main_arg3) :=
  (B3_of_ne m c main_arg3 (by decide)).trans ((B2_of_ne m c main_arg3 (by decide)).trans (V1_of m c main_arg3 (by decide)))
theorem last_arg5 (c : Dev nD) : B3 m c (Proc.devRef .tc main_arg5) = m ((c : Thread nD τ).loc main_arg5) :=
  (B3_of_ne m c main_arg5 (by decide)).trans ((B2_of_ne m c main_arg5 (by decide)).trans (V1_of m c main_arg5 (by decide)))
theorem last_arg7 (c : Dev nD) : B3 m c (Proc.devRef .tc main_arg7) = m ((c : Thread nD τ).loc main_arg7) :=
  (B3_of_ne m c main_arg7 (by decide)).trans ((B2_of_ne m c main_arg7 (by decide)).trans (V1_of m c main_arg7 (by decide)))
/-- A bias vector is an input window of the second region: its array ends as the region found it, and before that
    nothing wrote it. -/
theorem last_arg4 (c : Dev nD) : B3 m c (Proc.devRef .tc main_arg4) = m ((c : Thread nD τ).loc main_arg4) :=
  (B3_arr m c 1).trans (((dat1 (E2 m) c).arrAt_in 1 rfl _).trans ((A_eq1 (E2 m) c 1).trans
    ((B2_of_ne m c main_arg4 (by decide)).trans (V1_of m c main_arg4 (by decide)))))
theorem last_arg6 (c : Dev nD) : B3 m c (Proc.devRef .tc main_arg6) = m ((c : Thread nD τ).loc main_arg6) :=
  (B3_arr m c 3).trans (((dat1 (E2 m) c).arrAt_in 3 rfl _).trans ((A_eq1 (E2 m) c 3).trans
    ((B2_of_ne m c main_arg6 (by decide)).trans (V1_of m c main_arg6 (by decide)))))
theorem last_arg8 (c : Dev nD) : B3 m c (Proc.devRef .tc main_arg8) = m ((c : Thread nD τ).loc main_arg8) :=
  (B3_arr m c 5).trans (((dat1 (E2 m) c).arrAt_in 5 rfl _).trans ((A_eq1 (E2 m) c 5).trans
    ((B2_of_ne m c main_arg8 (by decide)).trans (V1_of m c main_arg8 (by decide)))))

/-- The run with its post read at the result array and at the nine arguments. -/
theorem run_read : θ_run defs (onTc (τ := τ) (main (F := F))) ⟨m, fun _ => 0, ρ⟩ (fun r => ∀ c : Dev nD,
      r.2.mem ((c.tc : Thread nD τ).loc main_v18) = (dat1 (E2 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_unscoped main_v18 (by decide))).trans (B3_arr m c 6),
     (h c _ (mem_unscoped main_arg0 (by decide))).trans (last_arg0 m c),
     (h c _ (mem_unscoped main_arg1 (by decide))).trans (last_arg1 m c),
     (h c _ (mem_unscoped main_arg2 (by decide))).trans (last_arg2 m c),
     (h c _ (mem_unscoped main_arg3 (by decide))).trans (last_arg3 m c),
     (h c _ (mem_unscoped main_arg4 (by decide))).trans (last_arg4 m c),
     (h c _ (mem_unscoped main_arg5 (by decide))).trans (last_arg5 m c),
     (h c _ (mem_unscoped main_arg6 (by decide))).trans (last_arg6 m c),
     (h c _ (mem_unscoped main_arg7 (by decide))).trans (last_arg7 m c),
     (h c _ (mem_unscoped main_arg8 (by decide))).trans (last_arg8 m c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_read m ρ)

end Cert.Kernel.Hand

end
-- ==== Proof.Layer1RunsI.lean ====
/-
  The first pallas_call (the first layer's contraction) at one grid point, in its three cases.

  The grid is 2 × 20: a point's second coordinate is its slab within a run of twenty. At the first slab of a run the
  body clears the accumulator it keeps in a scratch buffer; at every slab it adds the product of the point's block of
  the row matrix with the transpose of the point's block of the weights; at the last slab it also copies the accumulator,
  under a leading unit axis, into the output block. So a point is in one of three cases — first slab, middle slab,
  last slab — decided by the point's number modulo 20, and in each case the body, run on whole staging buffers, leaves
  the inputs as they were and the scratch (in the last case also the output buffer) rewritten whole.

  Generic in the float instance.
-/
import proofs.«139085_j2130303779207_2_alg».proof.Proof.Gen.KernelIdeal.Launch
import proofs.«139085_j2130303779207_2_alg».proof.Proof.Gen.KernelIdeal.Skeleton
import proofs.«139085_j2130303779207_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first layer's kernel at one grid point: what its three control cases share

The grid is 2 × 20, walked row-major: point `t` works on slab `t mod 20` of half `t / 20` of the contraction.
The kernel keeps a 256 × 512 accumulator between points. At a half's first slab it zeroes the accumulator, at
every slab it adds the slab's product to it, and at a half's last slab it copies it to the output block. -/

section Entry
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The slab of `x` staged at point `t` is its block there, fetched at that point or not, for any proof data
    over the entry contents that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the slab of `W1`. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Entry

/-! ## Which slab a point is on -/

/-- The kernel's test "this is the half's first slab" (grid coordinate 1 is 0), as it computes it. -/
abbrev atFirstSlab (i : grid0.Coords) : Prop :=
  (Scalar.cmpi .ne (Scalar.extui (Scalar.cmpi .eq (BitVec.ofNat 32 (i 1).val) 0#32)) 0#32) = 1#1
/-- It holds exactly at the points 0 and 20. -/
theorem atFirstSlab_iff : ∀ t : Fin cfg0.N, atFirstSlab (grid0.coords t) ↔ t.val % 20 = 0 :=
  (by decide +kernel : ∀ t : Fin grid0.N, atFirstSlab (grid0.coords t) ↔ t.val % 20 = 0)

/-- The kernel's test "this is the half's last slab" (grid coordinate 1 is 19). -/
abbrev atLastSlab (i : grid0.Coords) : Prop := k0_cond2 i = 1#1
/-- It holds exactly at the points 19 and 39. -/
theorem atLastSlab_iff : ∀ t : Fin cfg0.N, atLastSlab (grid0.coords t) ↔ t.val % 20 = 19 :=
  (by decide +kernel : ∀ t : Fin grid0.N, atLastSlab (grid0.coords t) ↔ t.val % 20 = 19)

/-! ## Where the output window is left alone -/

/-- The two input windows are in use at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- At a first slab that is not a last one the output block is neither stored into nor written back. -/
theorem idleAt0_2_first : ∀ t : Fin cfg0.N, atFirstSlab (grid0.coords t) → ¬atLastSlab (grid0.coords t) → cfg0.idle 2 (grid0.coords t) = true := by decide +kernel
theorem noFlush0_2_first : ∀ t : Fin cfg0.N, atFirstSlab (grid0.coords t) → ¬atLastSlab (grid0.coords t) → (cfg0.win 2).flush t = false := by decide +kernel
/-- Nor at a slab strictly inside a half. -/
theorem idleAt0_2_mid : ∀ t : Fin cfg0.N, ¬atFirstSlab (grid0.coords t) → ¬atLastSlab (grid0.coords t) → cfg0.idle 2 (grid0.coords t) = true := by decide +kernel
theorem noFlush0_2_mid : ∀ t : Fin cfg0.N, ¬atFirstSlab (grid0.coords t) → ¬atLastSlab (grid0.coords t) → (cfg0.win 2).flush t = false := by decide +kernel
/-- At a last slab the output block is stored. -/
theorem liveAt0_2_last : ∀ t : Fin cfg0.N, ¬atFirstSlab (grid0.coords t) → atLastSlab (grid0.coords t) → cfg0.idle 2 (grid0.coords t) = false := by decide +kernel

/-! ## The memrefs the body is called on -/

/-- One staging buffer of the output window, through which its contents are stated. -/
abbrev VO0_2 : View sig .tc .vmem S1x256x512 .f32 := (Memref.whole cc0_stg2_0 : Memref sig .tc .vmem S1x256x512 .f32).view
/-- Each window's current staging memref at point `t`, as the pipeline passes it, and that it is a whole buffer. -/
abbrev ms0_0 (t : Fin cfg0.N) : Memref sig .tc .vmem S256x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x512 .f32 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows. -/
abbrev scM0_0 : Memref sig .tc .vmem S256x512 .f32 := Memref.whole cc0_scratch0
/-- The accumulator as a view: what it holds is stated through it. -/
abbrev VS0_0 : View sig .tc .vmem S256x512 .f32 := scM0_0.view

/-- The second kernel's seven staging buffers, each whole at some contents: scoped buffers this region never touches. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f))

/-- What the region is entered with beside its windows: the accumulator owned at some contents, the second kernel's
    staging buffers, and the generator register at some state. -/
theorem PhiA0_eq (c : Dev nD) :
    (Pipeline.ΦA spec0 c : sProp 𝕄)
      = iprop(iprop((∃ d, owns (c : Thread nD τ) scM0_0 fullShare d) ∗ otherScoped (F := F) c) ∗ (∃ r, prngReg c r)) := by
  unfold Pipeline.ΦA; rw [scopedRest0_eq]; simp only [scM0_0, owns_whole]; unfold otherScoped; try rfl

/-! ## The body's run, case by case

Each run is a pair of piece lists — what the body's stores leave in the output block and in the accumulator, last
store first — with the proof that on whole memrefs the body runs to a continuation holding the inputs as they were
and each stored buffer with those pieces written. The pieces are found by running the body symbolically. -/

set_option maxHeartbeats 1000000 in
/-- CASE A, a half's first slab (and not its last): the accumulator, whatever it held, is zeroed and then receives
    the slab's product; the output block is handed back untouched. -/
noncomputable def kernelRun0_A (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : atFirstSlab i) (hc1 : ¬atLastSlab i)
    (x0 : Vec F S256x8192 .bf16) (x1 : Vec F S512x8192 .bf16) :
    Σ' (L2 : List (View.Piece (Elt F) S1x256x512 .f32)), { LS0 : List (View.Piece (Elt F) S256x512 .f32) //
      ∀ (xi2 : Vec F S1x256x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__layer1_kernel i arg2 harg2 arg3 harg3 arg4 harg4 arg5 harg5) K } := by
  refine ⟨[], ?_, fun xi2 E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE B, a slab strictly inside a half: the accumulator, holding `xs`, receives `xs` plus the slab's product; the
    output block is handed back untouched. -/
noncomputable def kernelRun0_B (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : ¬atLastSlab i)
    (x0 : Vec F S256x8192 .bf16) (x1 : Vec F S512x8192 .bf16) (xs : Vec F S256x512 .f32) :
    Σ' (L2 : List (View.Piece (Elt F) S1x256x512 .f32)), { LS0 : List (View.Piece (Elt F) S256x512 .f32) //
      ∀ (xi2 : Vec F S1x256x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__layer1_kernel i arg2 harg2 arg3 harg3 arg4 harg4 arg5 harg5) K } := by
  refine ⟨[], ?_, fun xi2 E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE C, a half's last slab (and not its first): the accumulator, holding `xs`, receives `xs` plus the slab's
    product, and the output block, whatever it held, receives a copy of that. -/
noncomputable def kernelRun0_C (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : atLastSlab i)
    (x0 : Vec F S256x8192 .bf16) (x1 : Vec F S512x8192 .bf16) (xs : Vec F S256x512 .f32) :
    Σ' (L2 : List (View.Piece (Elt F) S1x256x512 .f32)), { LS0 : List (View.Piece (Elt F) S256x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__layer1_kernel i arg2 harg2 arg3 harg3 arg4 harg4 arg5 harg5) K } := by
  refine ⟨?_, ?_, fun E K => ?run⟩
  case run =>
    simp only [cc0__layer1_kernel_eq_skeleton]; unfold cc0__layer1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.Layer1BodyI.lean ====
/-
  What the first layer's region holds point by point, and the body's obligation to the pipeline.

  After point n the scratch accumulator holds the product of the point's two blocks added to what the point before
  left — or to zero at the first slab of a run — and the output buffer, at a run's last slab, that accumulator under a
  leading unit axis; at the other points the output window is idle and is not written back. The region's invariant
  keeps the scratch at the previous point's accumulator (at anything before the first point) beside the other scoped
  buffers and the generator register, all untouched.

  Generic in the float instance.
-/
import proofs.«139085_j2130303779207_2_alg».proof.Proof.Layer1RunsI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first layer's kernel over its grid: what each point leaves, the proof data, the body obligation -/

/-! ## What each case leaves in the output block and in the accumulator -/

/-- Case A stores nothing into the output block: no pieces, read back over arbitrary contents — a placeholder nothing
    consults, the block being neither written back nor read at the next point. -/
def out0_A_2 (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : atFirstSlab i) (hc1 : ¬atLastSlab i)
    (x0 : Vec F S256x8192 .bf16) (x1 : Vec F S512x8192 .bf16) : Vec F S1x256x512 .f32 :=
  VO0_2.read (Elt F) (VO0_2.writes (Elt F) VO0_2.junk (kernelRun0_A c i arg2 harg2 arg3 harg3 arg4 harg4 arg5 harg5 hc0 hc1 x0 x1).1)

/-- Case A's stores into the accumulator cover it (each is the whole 256 × 512 rectangle). -/
theorem scover0_A_0 (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : atFirstSlab i) (hc1 : ¬atLastSlab i)
    (x0 : Vec F S256x8192 .bf16) (x1 : Vec F S512x8192 .bf16) (y : S256x512.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S256x512.size (by sl_kernel_rfl) y

/-- What case A leaves in the accumulator: its pieces read back over arbitrary contents. -/
def sout0_A_0 (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : atFirstSlab i) (hc1 : ¬atLastSlab i)
    (x0 : Vec F S256x8192 .bf16) (x1 : Vec F S512x8192 .bf16) : Vec F S256x512 .f32 :=
  VS0_0.read (Elt F) (VS0_0.writes (Elt F) VS0_0.junk (kernelRun0_A c i arg2 harg2 arg3 harg3 arg4 harg4 arg5 harg5 hc0 hc1 x0 x1).2.1)

/-- Case B stores nothing into the output block either. -/
def out0_B_2 (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : ¬atLastSlab i)
    (x0 : Vec F S256x8192 .bf16) (x1 : Vec F S512x8192 .bf16) (xs : Vec F S256x512 .f32) : Vec F S1x256x512 .f32 :=
  VO0_2.read (Elt F) (VO0_2.writes (Elt F) VO0_2.junk (kernelRun0_B c i arg2 harg2 arg3 harg3 arg4 harg4 arg5 harg5 hc0 hc1 x0 x1 xs).1)

/-- Case B's store into the accumulator covers it. -/
theorem scover0_B_0 (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : ¬atLastSlab i)
    (x0 : Vec F S256x8192 .bf16) (x1 : Vec F S512x8192 .bf16) (xs : Vec F S256x512 .f32) (y : S256x512.Idx) :
    ∃ pc ∈ (kernelRun0_B c i arg2 harg2 arg3 harg3 arg4 harg4 arg5 harg5 hc0 hc1 x0 x1 xs).2.1, y ∈ pc.1.set :=
  View.cover_of_tiledL (kernelRun0_B c i arg2 harg2 arg3 harg3 arg4 harg4 arg5 harg5 hc0 hc1 x0 x1 xs).2.1 S256x512.size (by sl_kernel_rfl) y

/-- What case B leaves in the accumulator. -/
def sout0_B_0 (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : ¬atLastSlab i)
    (x0 : Vec F S256x8192 .bf16) (x1 : Vec F S512x8192 .bf16) (xs : Vec F S256x512 .f32) : Vec F S256x512 .f32 :=
  VS0_0.read (Elt F) (VS0_0.writes (Elt F) VS0_0.junk (kernelRun0_B c i arg2 harg2 arg3 harg3 arg4 harg4 arg5 harg5 hc0 hc1 x0 x1 xs).2.1)

/-- Case C's one store into the output block covers it. -/
theorem cover0_C_2 (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : atLastSlab i)
    (x0 : Vec F S256x8192 .bf16) (x1 : Vec F S512x8192 .bf16) (xs : Vec F S256x512 .f32) (y : S1x256x512.Idx) :
    ∃ pc ∈ (kernelRun0_C c i arg2 harg2 arg3 harg3 arg4 harg4 arg5 harg5 hc0 hc1 x0 x1 xs).1, y ∈ pc.1.set :=
  View.cover_of_tiledL (kernelRun0_C c i arg2 harg2 arg3 harg3 arg4 harg4 arg5 harg5 hc0 hc1 x0 x1 xs).1 S1x256x512.size (by sl_kernel_rfl) y

/-- What case C leaves in the output block. -/
def out0_C_2 (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : atLastSlab i)
    (x0 : Vec F S256x8192 .bf16) (x1 : Vec F S512x8192 .bf16) (xs : Vec F S256x512 .f32) : Vec F S1x256x512 .f32 :=
  VO0_2.read (Elt F) (VO0_2.writes (Elt F) VO0_2.junk (kernelRun0_C c i arg2 harg2 arg3 harg3 arg4 harg4 arg5 harg5 hc0 hc1 x0 x1 xs).1)

/-- Case C's store into the accumulator covers it. -/
theorem scover0_C_0 (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : atLastSlab i)
    (x0 : Vec F S256x8192 .bf16) (x1 : Vec F S512x8192 .bf16) (xs : Vec F S256x512 .f32) (y : S256x512.Idx) :
    ∃ pc ∈ (kernelRun0_C c i arg2 harg2 arg3 harg3 arg4 harg4 arg5 harg5 hc0 hc1 x0 x1 xs).2.1, y ∈ pc.1.set :=
  View.cover_of_tiledL (kernelRun0_C c i arg2 harg2 arg3 harg3 arg4 harg4 arg5 harg5 hc0 hc1 x0 x1 xs).2.1 S256x512.size (by sl_kernel_rfl) y

/-- What case C leaves in the accumulator. -/
def sout0_C_0 (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : atLastSlab i)
    (x0 : Vec F S256x8192 .bf16) (x1 : Vec F S512x8192 .bf16) (xs : Vec F S256x512 .f32) : Vec F S256x512 .f32 :=
  VS0_0.read (Elt F) (VS0_0.writes (Elt F) VS0_0.junk (kernelRun0_C c i arg2 harg2 arg3 harg3 arg4 harg4 arg5 harg5 hc0 hc1 x0 x1 xs).2.1)

/-! ## The cases' contents as the kernel's arithmetic

Every load and store of the body goes through the whole rectangle of its buffer at zero offsets, so a load reads the
buffer's contents and the last store leaves its payload. -/

/-- The zero offsets of a rank-2 and of a rank-3 rectangle, as constant functions. -/
theorem zero2 : (![0, 0] : Fin 2 → ℕ) = fun _ => 0 := by funext a; fin_cases a <;> rfl
theorem zero3 : (![0, 0, 0] : Fin 3 → ℕ) = fun _ => 0 := by funext a; fin_cases a <;> rfl

/-- A first slab leaves in the accumulator the slab's product added to zeros. -/
theorem scratch_A (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : atFirstSlab i) (hc1 : ¬atLastSlab i)
    (x0 : Vec F S256x8192 .bf16) (x1 : Vec F S512x8192 .bf16) :
    sout0_A_0 c i arg2 harg2 arg3 harg3 arg4 harg4 arg5 harg5 hc0 hc1 x0 x1 = k0_pay2 (k0_pay1 (F := F)) x0 x1 := by
  unfold sout0_A_0
  rw [View.read_writes_eq_canon _ _ _ (scover0_A_0 c i arg2 harg2 arg3 harg3 arg4 harg4 arg5 harg5 hc0 hc1 x0 x1)]
  unfold kernelRun0_A; dsimp only; sl_unfold_words
  rw [View.canon_cons_unit_zero zero2]
  rw [View.readCov_unit_zero _ zero2]
  simp only [View.readAt_eq_ld, harg2.read_unread, harg3.read_unread, View.ld_unit_zero (S := S256x8192) zero2, View.ld_unit_zero (S := S512x8192) zero2]

/-- An inner slab leaves in the accumulator the slab's product added to what it held. -/
theorem scratch_B (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : ¬atLastSlab i)
    (x0 : Vec F S256x8192 .bf16) (x1 : Vec F S512x8192 .bf16) (xs : Vec F S256x512 .f32) :
    sout0_B_0 c i arg2 harg2 arg3 harg3 arg4 harg4 arg5 harg5 hc0 hc1 x0 x1 xs = k0_pay2 xs x0 x1 := by
  unfold sout0_B_0
  rw [View.read_writes_eq_canon _ _ _ (scover0_B_0 c i arg2 harg2 arg3 harg3 arg4 harg4 arg5 harg5 hc0 hc1 x0 x1 xs)]
  unfold kernelRun0_B; dsimp only; sl_unfold_words
  rw [View.canon_unit_zero zero2]
  simp only [View.readAt_eq_ld, harg2.read_unread, harg3.read_unread, harg5.read_unread, View.ld_unit_zero (S := S256x8192) zero2, View.ld_unit_zero (S := S512x8192) zero2, View.ld_unit_zero (S := S256x512) zero2]

/-- So does a last slab, -/
theorem scratch_C (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : atLastSlab i)
    (x0 : Vec F S256x8192 .bf16) (x1 : Vec F S512x8192 .bf16) (xs : Vec F S256x512 .f32) :
    sout0_C_0 c i arg2 harg2 arg3 harg3 arg4 harg4 arg5 harg5 hc0 hc1 x0 x1 xs = k0_pay2 xs x0 x1 := by
  unfold sout0_C_0
  rw [View.read_writes_eq_canon _ _ _ (scover0_C_0 c i arg2 harg2 arg3 harg3 arg4 harg4 arg5 harg5 hc0 hc1 x0 x1 xs)]
  unfold kernelRun0_C; dsimp only; sl_unfold_words
  rw [View.canon_unit_zero zero2]
  simp only [View.readAt_eq_ld, harg2.read_unread, harg3.read_unread, harg5.read_unread, View.ld_unit_zero (S := S256x8192) zero2, View.ld_unit_zero (S := S512x8192) zero2, View.ld_unit_zero (S := S256x512) zero2]

/-- and it leaves in the output block that sum, reshaped. -/
theorem out_C (c : Dev nD) (i : grid0.Coords) (arg2 : Memref sig .tc .vmem S256x8192 .bf16) (harg2 : arg2.IsWhole) (arg3 : Memref sig .tc .vmem S512x8192 .bf16) (harg3 : arg3.IsWhole) (arg4 : Memref sig .tc .vmem S1x256x512 .f32) (harg4 : arg4.IsWhole) (arg5 : Memref sig .tc .vmem S256x512 .f32) (harg5 : arg5.IsWhole) (hc0 : ¬atFirstSlab i) (hc1 : atLastSlab i)
    (x0 : Vec F S256x8192 .bf16) (x1 : Vec F S512x8192 .bf16) (xs : Vec F S256x512 .f32) :
    out0_C_2 c i arg2 harg2 arg3 harg3 arg4 harg4 arg5 harg5 hc0 hc1 x0 x1 xs = k0_pay3 (k0_pay2 xs x0 x1) := by
  unfold out0_C_2
  rw [View.read_writes_eq_canon _ _ _ (cover0_C_2 c i arg2 harg2 arg3 harg3 arg4 harg4 arg5 harg5 hc0 hc1 x0 x1 xs)]
  unfold kernelRun0_C; dsimp only; sl_unfold_words
  rw [View.canon_unit_zero zero3]
  rw [View.readCov_unit_zero _ zero2]
  simp only [View.readAt_eq_ld, harg2.read_unread, harg3.read_unread, harg5.read_unread, View.ld_unit_zero (S := S256x8192) zero2, View.ld_unit_zero (S := S512x8192) zero2, View.ld_unit_zero (S := S256x512) zero2]

section Entry
-- the TensorCore's buffer contents when the region is entered
variable (V : (c : Dev nD) → (b : Ref sig .tc) → Buf (Elt F) ((c : Thread nD τ).loc b))

/-! ## What the output block and the accumulator hold after each point -/

/-- From a point's residue mod 20 to the kernel's two tests there. -/
theorem first_of {t : Fin cfg0.N} (h : t.val % 20 = 0) : atFirstSlab (grid0.coords t) := (atFirstSlab_iff t).mpr h
theorem notFirst_of {t : Fin cfg0.N} (h : ¬t.val % 20 = 0) : ¬atFirstSlab (grid0.coords t) := fun h' => h ((atFirstSlab_iff t).mp h')
theorem last_of {t : Fin cfg0.N} (h : t.val % 20 = 19) : atLastSlab (grid0.coords t) := (atLastSlab_iff t).mpr h
theorem notLast_of {t : Fin cfg0.N} (h : ¬t.val % 20 = 19) : ¬atLastSlab (grid0.coords t) := fun h' => h ((atLastSlab_iff t).mp h')

/-- What a first slab's point leaves (output block, accumulator): case A at the point's memrefs and slabs. -/
def leftA (c : Dev nD) (t : Fin cfg0.N) (h0 : t.val % 20 = 0) (h1 : ¬t.val % 20 = 19) : Vec F S1x256x512 .f32 × Vec F S256x512 .f32 :=
  (out0_A_2 c (grid0.coords t) (ms0_0 t) (hs0_0 t) (ms0_1 t) (hs0_1 t) (ms0_2 t) (hs0_2 t) scM0_0 (Memref.isWhole_whole _) (first_of h0) (notLast_of h1) (iblk0 V c 0 t) (iblk0 V c 1 t),
   sout0_A_0 c (grid0.coords t) (ms0_0 t) (hs0_0 t) (ms0_1 t) (hs0_1 t) (ms0_2 t) (hs0_2 t) scM0_0 (Memref.isWhole_whole _) (first_of h0) (notLast_of h1) (iblk0 V c 0 t) (iblk0 V c 1 t))

/-- What an inner slab's point leaves, the accumulator holding `xs` before it: case B. -/
def leftB (c : Dev nD) (t : Fin cfg0.N) (h0 : ¬t.val % 20 = 0) (h1 : ¬t.val % 20 = 19) (xs : Vec F S256x512 .f32) : Vec F S1x256x512 .f32 × Vec F S256x512 .f32 :=
  (out0_B_2 c (grid0.coords t) (ms0_0 t) (hs0_0 t) (ms0_1 t) (hs0_1 t) (ms0_2 t) (hs0_2 t) scM0_0 (Memref.isWhole_whole _) (notFirst_of h0) (notLast_of h1) (iblk0 V c 0 t) (iblk0 V c 1 t) xs,
   sout0_B_0 c (grid0.coords t) (ms0_0 t) (hs0_0 t) (ms0_1 t) (hs0_1 t) (ms0_2 t) (hs0_2 t) scM0_0 (Memref.isWhole_whole _) (notFirst_of h0) (notLast_of h1) (iblk0 V c 0 t) (iblk0 V c 1 t) xs)

/-- What a last slab's point leaves, the accumulator holding `xs` before it: case C. -/
def leftC (c : Dev nD) (t : Fin cfg0.N) (h0 : ¬t.val % 20 = 0) (h1 : t.val % 20 = 19) (xs : Vec F S256x512 .f32) : Vec F S1x256x512 .f32 × Vec F S256x512 .f32 :=
  (out0_C_2 c (grid0.coords t) (ms0_0 t) (hs0_0 t) (ms0_1 t) (hs0_1 t) (ms0_2 t) (hs0_2 t) scM0_0 (Memref.isWhole_whole _) (notFirst_of h0) (last_of h1) (iblk0 V c 0 t) (iblk0 V c 1 t) xs,
   sout0_C_0 c (grid0.coords t) (ms0_0 t) (hs0_0 t) (ms0_1 t) (hs0_1 t) (ms0_2 t) (hs0_2 t) scM0_0 (Memref.isWhole_whole _) (notFirst_of h0) (last_of h1) (iblk0 V c 0 t) (iblk0 V c 1 t) xs)

/-- THE ACCUMULATION. The output window's staging buffer and the accumulator after the body at position `n`: the case
    the residue of `n` mod 20 selects, run on the point's slabs; off a first slab the accumulator starts from what
    position `n - 1` left in it. No point is both a first and a last slab. -/
def outsAt0 (c : Dev nD) : (n : ℕ) → n < cfg0.N → Vec F S1x256x512 .f32 × Vec F S256x512 .f32
  | 0, hn => leftA V c ⟨0, hn⟩ (Nat.zero_mod _) (show ¬(0 % 20 = 19) from by decide)
  | n + 1, hn =>
    if h0 : (n + 1) % 20 = 0 then
      if h1 : (n + 1) % 20 = 19 then False.elim (by omega)
      else leftA V c ⟨n + 1, hn⟩ h0 h1
    else
      if h1 : (n + 1) % 20 = 19 then leftC V c ⟨n + 1, hn⟩ h0 h1 (outsAt0 c n (Nat.lt_of_succ_lt hn)).2
      else leftB V c ⟨n + 1, hn⟩ h0 h1 (outsAt0 c n (Nat.lt_of_succ_lt hn)).2

/-- At a first slab. -/
theorem outsAt0_A (c : Dev nD) (t : Fin cfg0.N) (h0 : t.val % 20 = 0) (h1 : ¬t.val % 20 = 19) :
    outsAt0 V c t.val t.isLt = leftA V c t h0 h1 := by
  obtain ⟨n, hn⟩ := t
  cases n with
  | zero => exact rfl
  | succ n => exact (dif_pos h0).trans ((dif_neg h1).trans rfl)

/-- At an inner slab: over what the point before left in the accumulator. -/
theorem outsAt0_B (c : Dev nD) (t : Fin cfg0.N) (h0 : ¬t.val % 20 = 0) (h1 : ¬t.val % 20 = 19) :
    outsAt0 V c t.val t.isLt = leftB V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

/-- At a last slab: over what the point before left in the accumulator. -/
theorem outsAt0_C (c : Dev nD) (t : Fin cfg0.N) (h0 : ¬t.val % 20 = 0) (h1 : t.val % 20 = 19) :
    outsAt0 V c t.val t.isLt = leftC V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant between points -/

/-- Before position `n`: at the very first point what the region was entered with (the accumulator at anything);
    afterwards the accumulator owned at what position `n - 1` left in it, the second kernel's staging buffers and the
    generator register carried along untouched. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ otherScoped (F := F) c) ∗ (∃ r, prngReg c r)) := by
  cases n with
  | zero => exact absurd rfl hz
  | succ n => rfl

/-! ## The pipeline's proof data -/

/-- The proof data of the first layer's pipeline on core `c`: the arrays as the region finds them; after the body at
    point `t` each input's buffer at its slab and the output's at `outsAt0`'s first component; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its slab at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their slabs; the point's residue mod 20 says which case it is in, and
    that case's run applies. The invariant hands the body the accumulator — at anything at the very first point, else at
    what the point before left — and takes it back at this point's contents, the case's stores covering it. An output block
    the case leaves alone is handed back as found; at a last slab the one store covers it. Nothing is owed throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 40 := lt_of_lt_of_eq t.isLt (show cfg0.N = 40 from N_0)
  by_cases h0 : t.val % 20 = 0
  · by_cases h1 : t.val % 20 = 19
    · exfalso; omega
    · rw [Dat.leavesExact_idle (dat0 V c) 2 t (idleAt0_2_first t (first_of h0) (notLast_of h1)) (noFlush0_2_first t (first_of h0) (notLast_of h1))]
      rw [outsAt0_A V c t h0 h1]
      unfold leftA sout0_A_0; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩⟩
        iapply ((kernelRun0_A c (grid0.coords t) _ _ _ _ _ _ _ _ (first_of h0) (notLast_of h1) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun0_A c (grid0.coords t) _ _ _ _ _ _ _ _ (first_of h0) (notLast_of h1) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
  · by_cases h1 : t.val % 20 = 19
    · rw [show (dat0 V c).leavesExact 2 t = owns (c : Thread nD τ) (ms0_2 t) fullShare ((dat0 V c).after 2 t) from by
        unfold Dat.leavesExact; rw [liveAt0_2_last t (notFirst_of h0) (last_of h1)], after0_2]
      rw [outsAt0_C V c t h0 h1]
      unfold leftC out0_C_2 sout0_C_0; (try dsimp only)
      have hz : t.val ≠ 0 := by omega
      rw [PhiS_castSucc V c t, PhiS_pos V c _ _ hz]
      iintro ⟨⟨⟨HS0, Hoth⟩, Hg⟩, Ho, ⟨%d0, H0⟩, ⟨%d1, H1⟩, ⟨%d2, H2⟩⟩
      iapply ((kernelRun0_C c (grid0.coords t) _ _ _ _ _ _ _ _ (notFirst_of h0) (last_of h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_mid t (notFirst_of h0) (notLast_of h1)) (noFlush0_2_mid t (notFirst_of h0) (notLast_of h1))]
      rw [outsAt0_B V c t h0 h1]
      unfold leftB sout0_B_0; (try dsimp only)
      have hz : t.val ≠ 0 := by omega
      rw [PhiS_castSucc V c t, PhiS_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ _ _ (notFirst_of h0) (notLast_of h1) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives back what the region was entered with: what the accumulator holds
    is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 40 := N_0; omega)

/-! ## The accumulator and the output block, point by point -/

/-- After point `t` the accumulator holds the point's slab product added to zeros at a first slab, else to what the
    point before left. -/
theorem scratchAt_eq (c : Dev nD) (t : Fin cfg0.N) :
    (outsAt0 V c t.val t.isLt).2 = k0_pay2 (if t.val % 20 = 0 then k0_pay1 (F := F) else (outsAt0 V c (t.val - 1) (by omega)).2) (iblk0 V c 0 t) (iblk0 V c 1 t) := by
  have hN : t.val < 40 := lt_of_lt_of_eq t.isLt (show cfg0.N = 40 from N_0)
  by_cases h0 : t.val % 20 = 0
  · have h1 : ¬t.val % 20 = 19 := by omega
    rw [outsAt0_A V c t h0 h1, if_pos h0]; unfold leftA; dsimp only
    exact scratch_A c (grid0.coords t) (ms0_0 t) (hs0_0 t) (ms0_1 t) (hs0_1 t) (ms0_2 t) (hs0_2 t) scM0_0 (Memref.isWhole_whole _) (first_of h0) (notLast_of h1) (iblk0 V c 0 t) (iblk0 V c 1 t)
  · rw [if_neg h0]
    by_cases h1 : t.val % 20 = 19
    · rw [outsAt0_C V c t h0 h1]; unfold leftC; dsimp only
      exact scratch_C c (grid0.coords t) (ms0_0 t) (hs0_0 t) (ms0_1 t) (hs0_1 t) (ms0_2 t) (hs0_2 t) scM0_0 (Memref.isWhole_whole _) (notFirst_of h0) (last_of h1) (iblk0 V c 0 t) (iblk0 V c 1 t) (outsAt0 V c (t.val - 1) (Nat.lt_of_le_of_lt (Nat.sub_le _ _) t.isLt)).2
    · rw [outsAt0_B V c t h0 h1]; unfold leftB; dsimp only
      exact scratch_B c (grid0.coords t) (ms0_0 t) (hs0_0 t) (ms0_1 t) (hs0_1 t) (ms0_2 t) (hs0_2 t) scM0_0 (Memref.isWhole_whole _) (notFirst_of h0) (notLast_of h1) (iblk0 V c 0 t) (iblk0 V c 1 t) (outsAt0 V c (t.val - 1) (Nat.lt_of_le_of_lt (Nat.sub_le _ _) t.isLt)).2

/-- At a last slab the output block holds the accumulator's contents, reshaped. -/
theorem outAt_eq (c : Dev nD) (t : Fin cfg0.N) (h : t.val % 20 = 19) :
    (outsAt0 V c t.val t.isLt).1 = k0_pay3 ((outsAt0 V c t.val t.isLt).2) := by
  have h0 : ¬t.val % 20 = 0 := by omega
  rw [outsAt0_C V c t h0 h]; unfold leftC; dsimp only
  exact (out_C c (grid0.coords t) (ms0_0 t) (hs0_0 t) (ms0_1 t) (hs0_1 t) (ms0_2 t) (hs0_2 t) scM0_0 (Memref.isWhole_whole _) (notFirst_of h0) (last_of h) (iblk0 V c 0 t) (iblk0 V c 1 t) (outsAt0 V c (t.val - 1) (Nat.lt_of_le_of_lt (Nat.sub_le _ _) t.isLt)).2).trans
    (congrArg k0_pay3 (scratch_C c (grid0.coords t) (ms0_0 t) (hs0_0 t) (ms0_1 t) (hs0_1 t) (ms0_2 t) (hs0_2 t) scM0_0 (Memref.isWhole_whole _) (notFirst_of h0) (last_of h) (iblk0 V c 0 t) (iblk0 V c 1 t) (outsAt0 V c (t.val - 1) (Nat.lt_of_le_of_lt (Nat.sub_le _ _) t.isLt)).2).symm)

end Entry

end Cert.KernelIdeal.Hand

end
-- ==== Proof.TailBodyI.lean ====
/-
  The second pallas_call (the tail of the perceptron) as the pipeline runs it: one grid point, seven windows.
  Windows 0..5 are inputs (the two partial sums [2,256,512], the bias b1, the weights W2, the bias b2, the
  weights Wp, the bias bp), window 6 is the output [256,2].

  The body reads window 0's buffer through two rectangles of shape [1,256,512] (the two partial sums), reads the
  other five inputs whole, reads the output buffer (and drops what it read) and stores one value, the payload
  k1_pay1 of the seven values read, over the whole output buffer.  So after the body every input buffer is as it
  was and the output buffer holds  tailOut  of the six input blocks, whatever it held before.

  Everything here is generic in the float instance.
-/
import proofs.«139085_j2130303779207_2_alg».proof.Proof.Gen.KernelIdeal.Launch
import proofs.«139085_j2130303779207_2_alg».proof.Proof.Gen.KernelIdeal.Skeleton
import proofs.«139085_j2130303779207_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the tail's region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at the point, fetched there or not, for any proof data
    whose array is the entry contents and whose body leaves the block in place: none of the six inputs is cut or
    ever idle. One statement per window, the window a literal, so that the side conditions are closed by
    evaluation. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The first partial sum: rows [0,1) of the [2,256,512] buffer. -/
abbrev rPart0 : Rect S2x256x512 := Rect.unit (s := S2x256x512) ![0, 0, 0] S1x256x512.size inb_S2x256x512_S1x256x512_0_0_0
/-- The second partial sum: rows [1,2) of the [2,256,512] buffer. -/
abbrev rPart1 : Rect S2x256x512 := Rect.unit (s := S2x256x512) ![1, 0, 0] S1x256x512.size inb_S2x256x512_S1x256x512_1_0_0
/-- The other buffers, whole. -/
abbrev rV512 : Rect S512 := Rect.unit (s := S512) ![0] S512.size inb_S512_S512_0
abbrev rW2 : Rect S512x512 := Rect.unit (s := S512x512) ![0, 0] S512x512.size inb_S512x512_S512x512_0_0
abbrev rWp : Rect S2x512 := Rect.unit (s := S2x512) ![0, 0] S2x512.size inb_S2x512_S2x512_0_0
abbrev rV2 : Rect S2 := Rect.unit (s := S2) ![0] S2.size inb_S2_S2_0
abbrev rOut : Rect S256x2 := Rect.unit (s := S256x2) ![0, 0] S256x2.size inb_S256x2_S256x2_0_0

/-! ## What the body leaves in the output window's buffer -/

/-- The output buffer after the body, from the six input blocks: its one store, over the whole buffer, of the
    payload of the values the loads read. -/
def tailOut (x0 : Vec F S2x256x512 .f32) (x1 : Vec F S512 .f32) (x2 : Vec F S512x512 .bf16) (x3 : Vec F S512 .f32)
    (x4 : Vec F S2x512 .bf16) (x5 : Vec F S2 .f32) : Vec F S256x2 .f32 :=
  View.canon [⟨rOut, k1_pay1 (View.ld x0 rPart0) (View.ld x0 rPart1) (View.ld x1 rV512) (View.ld x2 rW2) (View.ld x3 rV512)
    (View.ld x4 rWp) (View.ld x5 rV2)⟩]

/-- The store tiles the output buffer, so it covers it. -/
theorem cover_tailOut (p0 : Vec F S256x2 .f32) (y : S256x2.Idx) :
    ∃ pc ∈ ([⟨rOut, p0⟩] : List (View.Piece (Elt F) S256x2 .f32)), y ∈ pc.1.set :=
  View.cover_of_tiled [⟨rOut, p0⟩] S256x2.size (by rfl) y

/-! ## The body's triple -/

set_option maxHeartbeats 4000000 in
/-- The tail body on whole staging memrefs, the six inputs' at read contents x0..x5 and the output's at anything, runs
    to the continuation holding the inputs' as they were and the output's at tailOut of the inputs'. -/
theorem sound_tail (c : Dev nD) (E : Set ℕ) (i : grid1.Coords)
    (arg1 : Memref sig .tc .vmem S2x256x512 .f32) (harg1 : arg1.IsWhole) (arg2 : Memref sig .tc .vmem S512 .f32) (harg2 : arg2.IsWhole)
    (arg3 : Memref sig .tc .vmem S512x512 .bf16) (harg3 : arg3.IsWhole) (arg4 : Memref sig .tc .vmem S512 .f32) (harg4 : arg4.IsWhole)
    (arg5 : Memref sig .tc .vmem S2x512 .bf16) (harg5 : arg5.IsWhole) (arg6 : Memref sig .tc .vmem S2 .f32) (harg6 : arg6.IsWhole)
    (arg7 : Memref sig .tc .vmem S256x2 .f32) (harg7 : arg7.IsWhole)
    (x0 : Vec F S2x256x512 .f32) (x1 : Vec F S512 .f32) (x2 : Vec F S512x512 .bf16) (x3 : Vec F S512 .f32)
    (x4 : Vec F S2x512 .bf16) (x5 : Vec F S2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (tailOut x0 x1 x2 x3 x4 x5)) -∗ K ⟨⟩))
      ⊢ wp frame (wpE (defs₀ (F := F)) Variants.none c none) E
          (cc1__tail_kernel i arg1 harg1 arg2 harg2 arg3 harg3 arg4 harg4 arg5 harg5 arg6 harg6 arg7 harg7) K := by
  simp only [cc1__tail_kernel_eq_skeleton]; unfold cc1__tail_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_tailOut _)

/-! ## The pipeline's proof data -/

/-- The proof data of the tail's pipeline on core c: the arrays as the region finds them; after the body each input's
    buffer at its block and the output's at tailOut of the six input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => tailOut (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = tailOut (iblk1 V c 0 t) (iblk1 V c 1 t) (iblk1 V c 2 t) (iblk1 V c 3 t) (iblk1 V c 4 t) (iblk1 V c 5 t) := by
  dsimp only [dat1]

/-- Each input's current staging buffer holds its block at the point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_tail c Set.univ _ _ _ _ _ _ _ _ _ _ _ _ _ _ _ (iblk1 V c 0 t) (iblk1 V c 1 t) (iblk1 V c 2 t) (iblk1 V c 3 t)
    (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.RunI.lean ====
/-
  The whole program's run, for any float instance: the host operations that build the row matrix, then the
  region that contracts it against the first weight matrix in two halves, then the region that adds the
  halves and applies the two small layers. Between the three items a core's unscoped buffers hold known
  contents: as launched; then with the host operations' results; then with the first region's output array
  at what its write-backs leave; then with the second region's. Every weakly fair execution terminates, and
  at the end every unscoped buffer holds the last of these contents — in particular each argument array what
  it was launched with (no item writes one) and the result array what the second region's one block leaves.
-/
import proofs.«139085_j2130303779207_2_alg».proof.Proof.Layer1BodyI
import proofs.«139085_j2130303779207_2_alg».proof.Proof.TailBodyI
import proofs.«139085_j2130303779207_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- As launched. -/
abbrev B0 : Dev nD → Valuation τ sig (Elt F) := fun c b => m ((c : Dev nD), b)
/-- After the host operations: what the first region is entered from. -/
abbrev B1 : Dev nD → Valuation τ sig (Elt F) := fun c => StableHlo.after hostOps0 (B0 m c)
/-- The same, read at the TensorCore's references. -/
abbrev E1 : (c : Dev nD) → (b : Ref sig .tc) → Buf (Elt F) ((c : Thread nD τ).loc b) := fun c b => B1 m c b
/-- After the first region: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- The same, read at the TensorCore's references: what the second region is entered from. -/
abbrev E2 : (c : Dev nD) → (b : Ref sig .tc) → Buf (Elt F) ((c : Thread nD τ).loc b) := fun c b => B2 m c b
theorem left0 (c : Dev nD) (w : Fin cfg0.W) : (dat0 (E1 m) c).arrAt w cfg0.N = E2 m c (Pipeline.arrRef spec0 w) :=
  (B2_arr m c w).symm
theorem kept0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- After the second region. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem left1 (c : Dev nD) (w : Fin cfg1.W) : (dat1 (E2 m) c).arrAt w cfg1.N = E3 m c (Pipeline.arrRef spec1 w) :=
  (B3_arr m c w).symm
theorem kept1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ## The proof data of both pipelines, and what rides beside the buffers -/

/-- No pipeline has a prefetched table. -/
abbrev noTables : (p : Fin 2) → (pcfgs (F := F) p).Adm := fun p => (cfgs p).toPCfg_adm
/-- Each pipeline's proof data at its region's entry contents. -/
def bothDats : (p : Fin 2) → (c : Dev nD) → Dat τ (Elt F) Unit ℕ (UR sig nD τ) ℕ (Pipeline.pin (pcfgs (F := F)) noTables p) c
  | ⟨0, _⟩ => fun c => dat0 (E1 m) c
  | ⟨1, _⟩ => fun c => dat1 (E2 m) c
abbrev noVariants : Variants := Variants.none
/-- No core owes another anything: no level is assigned. -/
abbrev noPairs : GSem nD τ sig → Finset Unit := fun _ => ∅
abbrev noLevels : GSem nD τ sig → Unit → ℕ := fun _ _ => 0
/-- Beside the buffers: the generator register at some state, and the core owing nothing. -/
abbrev Beside (c : Dev nD) : sProp 𝕄 := iprop((∃ r, prngReg c r) ∗ ∃ W, owes (c : Thread nD τ) (0 : CellTallies nD τ sig Unit) W)
/-- The host operations allocate nothing. -/
theorem hostOps0_alloc_none : (hostOps0 : List (HloOp τ sig (Elt F))).Forall fun op => op.fresh = ∅ := by
  simp only [List.Forall]; repeat' constructor
/-- The host stretch as a segment over the unscoped references. -/
abbrev hostSeg : Pipeline.HostSeg (Name := ℕ) (U := UR sig nD τ) (pcfgs (F := F)) defs₀ noVariants noPairs noLevels :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_alloc_none) op h) (B0 m) Beside
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the owes. -/
abbrev AtEnd (c : Dev nD) : sProp 𝕄 := iprop(StableHlo.held (c : Thread nD τ) (Pipeline.ucRefs τ sig) (B3 m c) ∗ ∃ r, prngReg c r)

/-! ## The two regions as segments -/

set_option backward.isDefEq.respectTransparency.types false in
/-- The first region: entered from the buffers at B1, left at B2. Its three arrays are split out of the unscoped
    buffers and put back at the exit contents; the generator register goes into the invariant and comes back; the
    scratch accumulator lives inside the invariant; nothing owed; no semaphore of the kernel's own. -/
def region0 : Pipeline.RegionSeg (pcfgs (F := F)) noTables (bothDats m) () defs₀ noVariants noPairs noLevels 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ noPairs noLevels 0 fun _ _ => rfl
  pre c := iprop(StableHlo.held (c : Thread nD τ) (Pipeline.ucRefs τ sig) (B1 m c) ∗ Beside c)
  post c := iprop(StableHlo.held (c : Thread nD τ) (Pipeline.ucRefs τ sig) (B2 m c) ∗ Beside c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) noTables (bothDats m) launch0.win launch0.arr_whole c
      ((bothDats m 0 c).share_full fun _ => rfl) (E1 m c) fun w => A_eq0 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 0).pre c (fun _ => fullShare) (noTables (F := F) 0).1 ∗ Pipeline.scopedRest spec0 c)
        ⊢ (Pipeline.ΦA spec0 c : sProp 𝕄) from by
      unfold Pipeline.ΦA
      iintro ⟨Hp, -, Hr⟩
      isplitl [Hr]; · iexact Hr
      iexact Hp).trans (hin0 (E1 m) c)
  hout c := by
    rw [Pipeline.ownSems0_none]
    exact (hout0 (E1 m) c).trans (show (Pipeline.ΦA spec0 c : sProp 𝕄) ⊢ iprop((∃ r, prngReg c r) ∗ BI.emp ∗ Pipeline.scopedRest spec0 c) from by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) noTables (Ix := Unit) (Name := ℕ) (U := UR sig nD τ) (Lvl := ℕ)
      launch0.win launch0.arr_whole c (bothDats m) ((bothDats m 0 c).share_full fun _ => rfl)
      (E1 m c) (E2 m c) ((bothDats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the buffers at B2, left at B3; its invariant is the scoped rest and the generator
    register, untouched. -/
def region1 : Pipeline.RegionSeg (pcfgs (F := F)) noTables (bothDats m) () defs₀ noVariants noPairs noLevels 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ noPairs noLevels 1 fun _ _ => rfl
  pre c := iprop(StableHlo.held (c : Thread nD τ) (Pipeline.ucRefs τ sig) (B2 m c) ∗ Beside c)
  post c := iprop(AtEnd m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) noTables (bothDats m) launch1.win launch1.arr_whole c
      ((bothDats m 1 c).share_full fun _ => rfl) (E2 m c) fun w => A_eq1 (E2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (bothDats m 1 c).Φ 0 = Pipeline.ΦA spec1 c from rfl]; unfold Pipeline.ΦA
    iintro ⟨Hp, -, Hr⟩
    isplitl [Hr]; · iexact Hr
    iexact Hp
  hout c := by
    rw [Pipeline.ownSems0_none, show (bothDats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (bothDats m) ((bothDats m 1 c).share_full fun _ => rfl)
      (E2 m c) (E3 m c) ((bothDats m 1 c).arrAt · cfg1.N) (left1 m c) (kept1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three items, and the launch -/

abbrev items : List (Pipeline.Seg (pcfgs (F := F)) noTables (bothDats m) () defs₀ noVariants noPairs noLevels) :=
  [ .host (hostSeg m), .region (region0 m), .region (region1 m) ]

/-- The printed program is the run of the three items. -/
theorem main_items (c : Dev nD) : main (F := F) c = Pipeline.Seg.run (items m) := (main_chain c).trans (by chain_rfl)

set_option backward.isDefEq.respectTransparency.types false in
/-- From any memory with zero counters every weakly fair execution terminates, nothing faulting, and at the end every
    unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) noTables (bothDats m) () cellOf_inj emb₁ defs₀ noVariants noPairs noLevels m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Beside c)) (Tₙ := AtEnd m)
    (hch := ⟨fun _ => .rfl, fun _ => .rfl, fun _ => .rfl, fun _ => .rfl⟩)
    (hinit := by
      refine Pipeline.initEach noPairs noLevels fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-! ## What the run says of the arguments and of the result -/

/-- An argument no window stages is as launched: no host operation writes it, no region touches it. -/
theorem last_arg0 (c : Dev nD) : B3 m c (Proc.devRef .tc main_arg0) = m ((c : Thread nD τ).loc main_arg0) :=
  (B3_of_ne m c main_arg0 (by decide)).trans ((B2_of_ne m c main_arg0 (by decide)).trans (V1_of m c main_arg0 (by decide)))
theorem last_arg1 (c : Dev nD) : B3 m c (Proc.devRef .tc main_arg1) = m ((c : Thread nD τ).loc main_arg1) :=
  (B3_of_ne m c main_arg1 (by decide)).trans ((B2_of_ne m c main_arg1 (by decide)).trans (V1_of m c main_arg1 (by decide)))
theorem last_arg2 (c : Dev nD) : B3 m c (Proc.devRef .tc main_arg2) = m ((c : Thread nD τ).loc main_arg2) :=
  (B3_of_ne m c main_arg2 (by decide)).trans ((B2_of_ne m c main_arg2 (by decide)).trans (V1_of m c main_arg2 (by decide)))
theorem last_arg3 (c : Dev nD) : B3 m c (Proc.devRef .tc main_arg3) = m ((c : Thread nD τ).loc main_arg3) :=
  (B3_of_ne m c main_arg3 (by decide)).trans ((B2_of_ne m c main_arg3 (by decide)).trans (V1_of m c main_arg3 (by decide)))
theorem last_arg5 (c : Dev nD) : B3 m c (Proc.devRef .tc main_arg5) = m ((c : Thread nD τ).loc main_arg5) :=
  (B3_of_ne m c main_arg5 (by decide)).trans ((B2_of_ne m c main_arg5 (by decide)).trans (V1_of m c main_arg5 (by decide)))
theorem last_arg7 (c : Dev nD) : B3 m c (Proc.devRef .tc main_arg7) = m ((c : Thread nD τ).loc main_arg7) :=
  (B3_of_ne m c main_arg7 (by decide)).trans ((B2_of_ne m c main_arg7 (by decide)).trans (V1_of m c main_arg7 (by decide)))
/-- A bias vector is an input window of the second region: its array ends as the region found it, and before that
    nothing wrote it. -/
theorem last_arg4 (c : Dev nD) : B3 m c (Proc.devRef .tc main_arg4) = m ((c : Thread nD τ).loc main_arg4) :=
  (B3_arr m c 1).trans (((dat1 (E2 m) c).arrAt_in 1 rfl _).trans ((A_eq1 (E2 m) c 1).trans
    ((B2_of_ne m c main_arg4 (by decide)).trans (V1_of m c main_arg4 (by decide)))))
theorem last_arg6 (c : Dev nD) : B3 m c (Proc.devRef .tc main_arg6) = m ((c : Thread nD τ).loc main_arg6) :=
  (B3_arr m c 3).trans (((dat1 (E2 m) c).arrAt_in 3 rfl _).trans ((A_eq1 (E2 m) c 3).trans
    ((B2_of_ne m c main_arg6 (by decide)).trans (V1_of m c main_arg6 (by decide)))))
theorem last_arg8 (c : Dev nD) : B3 m c (Proc.devRef .tc main_arg8) = m ((c : Thread nD τ).loc main_arg8) :=
  (B3_arr m c 5).trans (((dat1 (E2 m) c).arrAt_in 5 rfl _).trans ((A_eq1 (E2 m) c 5).trans
    ((B2_of_ne m c main_arg8 (by decide)).trans (V1_of m c main_arg8 (by decide)))))

/-- The run with its post read at the result array and at the nine arguments. -/
theorem run_read : θ_run defs (onTc (τ := τ) (main (F := F))) ⟨m, fun _ => 0, ρ⟩ (fun r => ∀ c : Dev nD,
      r.2.mem ((c.tc : Thread nD τ).loc main_v18) = (dat1 (E2 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_unscoped main_v18 (by decide))).trans (B3_arr m c 6),
     (h c _ (mem_unscoped main_arg0 (by decide))).trans (last_arg0 m c),
     (h c _ (mem_unscoped main_arg1 (by decide))).trans (last_arg1 m c),
     (h c _ (mem_unscoped main_arg2 (by decide))).trans (last_arg2 m c),
     (h c _ (mem_unscoped main_arg3 (by decide))).trans (last_arg3 m c),
     (h c _ (mem_unscoped main_arg4 (by decide))).trans (last_arg4 m c),
     (h c _ (mem_unscoped main_arg5 (by decide))).trans (last_arg5 m c),
     (h c _ (mem_unscoped main_arg6 (by decide))).trans (last_arg6 m c),
     (h c _ (mem_unscoped main_arg7 (by decide))).trans (last_arg7 m c),
     (h c _ (mem_unscoped main_arg8 (by decide))).trans (last_arg8 m c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_read m ρ)

end Cert.KernelIdeal.Hand

end
-- ==== Proof.Spec.lean ====
/-
  The function both programs compute, on the extended reals: a three-layer perceptron on a row matrix `X`
  (256 rows of 327680 entries: the masked embeddings of a row's 512 tokens, laid side by side).

    h1[b, d] = max (∑ K, X[b, K] · W1[d, K] + b1[d]) 0        (d < 512)
    h2[b, d] = max (∑ k, h1[b, k] · W2[d, k] + b2[d]) 0        (d < 512)
    out[b, j] = ∑ k, h2[b, k] · Wp[j, k] + bp[j]               (j < 2)

  The kernel computes the first contraction in two halves of twenty slabs of 8192 columns each and adds the
  halves; the reference contracts all 327680 columns at once. On the extended reals addition is commutative
  and associative, so the two groupings of the one sum agree (`sum_slabs`), with no finiteness needed.
-/
import Idealize.ShloMosaic.PureOps.Ideal
import Idealize.ShloMosaic.Lib.ValueIdx

noncomputable section

open scoped BigOperators

namespace Mlp

open Idealize.ShloMosaic Idealize.ShloMosaic.ValueIdx

/-- The shapes of the perceptron's arrays, spelled as literals (each printed program's own abbreviations unfold to these). -/
abbrev SX : Shape := ⟨2, ![256, 327680]⟩
abbrev SW1 : Shape := ⟨2, ![512, 327680]⟩
abbrev SV512 : Shape := ⟨1, ![512]⟩
abbrev SW2 : Shape := ⟨2, ![512, 512]⟩
abbrev SWp : Shape := ⟨2, ![2, 512]⟩
abbrev SV2 : Shape := ⟨1, ![2]⟩
abbrev SOut : Shape := ⟨2, ![256, 2]⟩

/-- The first layer before its bias: row `b` of `X` against row `d` of `W1`, all 327680 columns. -/
def pre1 (X : SX.Idx → EReal) (W1 : SW1.Idx → EReal) (b : Fin 256) (d : Fin 512) : EReal :=
  ∑ K : Fin 327680, X (ix2 b K) * W1 (ix2 d K)

/-- A hidden layer from its pre-activation sum `s`: the bias added, the negative part cut off. -/
def hidden (s : Fin 256 → Fin 512 → EReal) (bias : SV512.Idx → EReal) (b : Fin 256) (d : Fin 512) : EReal :=
  max (s b d + bias (ix1 d)) 0

/-- The second layer before its bias: row `b` of the hidden activations against row `d` of `W2`. -/
def pre2 (h : Fin 256 → Fin 512 → EReal) (W2 : SW2.Idx → EReal) (b : Fin 256) (d : Fin 512) : EReal :=
  ∑ k : Fin 512, h b k * W2 (ix2 d k)

/-- The two output scores of row `b`. -/
def logits (h : Fin 256 → Fin 512 → EReal) (Wp : SWp.Idx → EReal) (bp : SV2.Idx → EReal) (b : Fin 256) (j : Fin 2) : EReal :=
  (∑ k : Fin 512, h b k * Wp (ix2 j k)) + bp (ix1 j)

/-- Everything after the first contraction, from its sums `s`. -/
def tail (s : Fin 256 → Fin 512 → EReal) (b1 : SV512.Idx → EReal) (W2 : SW2.Idx → EReal) (b2 : SV512.Idx → EReal)
    (Wp : SWp.Idx → EReal) (bp : SV2.Idx → EReal) : SOut.Idx → EReal :=
  fun i => logits (hidden (pre2 (hidden s b1) W2) b2) Wp bp (i 0) (i 1)

/-- The whole perceptron. -/
def G (X : SX.Idx → EReal) (W1 : SW1.Idx → EReal) (b1 : SV512.Idx → EReal) (W2 : SW2.Idx → EReal) (b2 : SV512.Idx → EReal)
    (Wp : SWp.Idx → EReal) (bp : SV2.Idx → EReal) : SOut.Idx → EReal :=
  tail (pre1 X W1) b1 W2 b2 Wp bp

end Mlp

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.TailValueI.lean ====
/-
  The tail's stored value, read at an index, at the ideal values.

  What the tail body leaves in the output buffer is the payload of its loads: with  s[b, d] = part0[b, d] + part1[b, d]
  the sum of the two partial sums,

    h1[b, d]  = max (s[b, d] + b1[d]) 0
    h2[b, d]  = max (∑ k, h1[b, k] · W2[d, k] + b2[d]) 0
    out[b, j] = ∑ k, h2[b, k] · Wp[j, k] + bp[j]

  On the extended reals the roundings to bf16 are the identity, the zero words are the number zero, a product
  into the zero accumulator is the plain sum of products, the transposed weights at (k, d) are the weights at
  (d, k), a bias laid as one row and repeated over the rows is the bias at the column, and the two rectangles of
  the [2,256,512] block are its two leading slices. So the stored value at (b, j) is the perceptron's tail
  (Mlp.logits ∘ Mlp.hidden ∘ Mlp.pre2 ∘ Mlp.hidden) of the summed partial sums.
-/
import proofs.«139085_j2130303779207_2_alg».proof.Proof.TailBodyI
import proofs.«139085_j2130303779207_2_alg».proof.Proof.Spec
import proofs.«139085_j2130303779207_2_alg».proof.Proof.LibMatmul
import Idealize.ShloMosaic.Lib.ValueLayout

set_option maxRecDepth 16384

noncomputable section

namespace Cert.KernelIdeal.Hand

open Cert.KernelIdeal Cert.KernelIdeal.Gen
open Idealize.ShloMosaic Idealize.ShloMosaic.ValueIdx
open scoped BigOperators

/-- The zero offsets of a whole-buffer rectangle, at rank one and two. -/
theorem tail_zeros1 : (![0] : Fin 1 → ℕ) = fun _ => 0 := funext fun a => by fin_cases a <;> rfl
theorem tail_zeros2 : (![0, 0] : Fin 2 → ℕ) = fun _ => 0 := funext fun a => by fin_cases a <;> rfl

/-- The first rectangle of the [2,256,512] block at (0, b, d) is the block at (0, b, d): offsets (0,0,0), unit strides. -/
theorem tail_ld_part0 (x0 : Vec Ideal S2x256x512 .f32) (b : Fin 256) (d : Fin 512) :
    View.ld x0 rPart0 (ix3 (0 : Fin 1) b d) = x0 (ix3 (0 : Fin 2) b d) := by
  refine congrArg x0 (funext fun a => Fin.ext ?_)
  match a with
  | ⟨0, _⟩ => rfl
  | ⟨1, _⟩ => show 0 + 1 * b.val = b.val; omega
  | ⟨2, _⟩ => show 0 + 1 * d.val = d.val; omega

/-- The second rectangle at (0, b, d) is the block at (1, b, d): offsets (1,0,0), unit strides. -/
theorem tail_ld_part1 (x0 : Vec Ideal S2x256x512 .f32) (b : Fin 256) (d : Fin 512) :
    View.ld x0 rPart1 (ix3 (0 : Fin 1) b d) = x0 (ix3 (1 : Fin 2) b d) := by
  refine congrArg x0 (funext fun a => Fin.ext ?_)
  match a with
  | ⟨0, _⟩ => rfl
  | ⟨1, _⟩ => show 0 + 1 * b.val = b.val; omega
  | ⟨2, _⟩ => show 0 + 1 * d.val = d.val; omega

/-- The sum of the two partial sums, each read with its unit axis dropped, at (b, d). -/
theorem tail_partials_apply (x0 : Vec Ideal S2x256x512 .f32) (b : Fin 256) (d : Fin 512) :
    (addf (shapeCast S256x512 (View.ld x0 rPart0) shapeCasts_S1x256x512_S256x512)
        (shapeCast S256x512 (View.ld x0 rPart1) shapeCasts_S1x256x512_S256x512) : FVec Ideal S256x512 .f32) (ix2 b d)
      = x0 (ix3 0 b d) + x0 (ix3 1 b d) := by
  rw [addf_apply, shapeCast_1ab_ab_apply, shapeCast_1ab_ab_apply, tail_ld_part0, tail_ld_part1]

/-- A vector laid as one row and repeated over the rows reads, at (b, d), the vector at d. -/
theorem tail_biasRow_apply {a n : ℕ} (v : (⟨1, ![n]⟩ : Shape).Idx → EReal) (h1 : (⟨1, ![n]⟩ : Shape).ShapeCasts ⟨2, ![1, n]⟩)
    (h2 : (⟨2, ![1, n]⟩ : Shape).Broadcasts ⟨2, ![a, n]⟩) (b : Fin a) (d : Fin n) :
    broadcastTo ⟨2, ![a, n]⟩ (shapeCast ⟨2, ![1, n]⟩ v h1) h2 (ix2 b d) = v (ix1 d) := by
  rw [broadcastTo_1b_ab_apply, shapeCast_a_1a_apply]

/-- The two products' dimension numbers are the plain ones: [256,512]·[512,512] and [256,512]·[512,2]. -/
theorem tail_dims_w2 : dot_S256x512_S512x512_S256x512_1_0_0_1_n_n = DotDims.plain 256 512 512 := rfl
theorem tail_dims_wp : dot_S256x512_S512x2_S256x2_1_0_0_1_n_n = DotDims.plain 256 512 2 := rfl

/-- A hidden layer as the body computes it from its sums s — the bias row added, the maximum with the zero
    constant, the rounding to bf16 — is, at (b, d), max (s[b, d] + bias[d]) 0. -/
theorem tail_hidden_apply (s : FVec Ideal S256x512 .f32) (bias : FVec Ideal S512 .f32) (b : Fin 256) (d : Fin 512) :
    (truncf .bf16 (maximumf (addf s (broadcastTo S256x512 (shapeCast S1x512 bias shapeCasts_S512_S1x512) broadcasts_S1x512_S256x512))
        (broadcast S256x512 (Scalar.ofBits .f32 0x00000000#32))) bitsLt_bf16_f32 : FVec Ideal S256x512 .bf16) (ix2 b d)
      = Mlp.hidden (fun b d => s (ix2 b d)) bias b d := by
  rw [truncf_apply, maximumf_apply, addf_apply, broadcast_apply, tail_biasRow_apply]
  unfold Mlp.hidden
  rw [show (Scalar.ofBits (F := Ideal) .f32 0x00000000#32 : EReal) = 0 from Ideal.ofBits_zero_f32]

/-- The second layer's product, h against the transposed W2 into the zero accumulator, is at (b, d) the sum over k
    of h[b, k] · W2[d, k]. -/
theorem tail_matmulW2_apply (h : FVec Ideal S256x512 .bf16) (w : FVec Ideal S512x512 .bf16) (b : Fin 256) (d : Fin 512) :
    matmul dot_S256x512_S512x512_S256x512_1_0_0_1_n_n none h
        (transpose S512x512 [1, 0] w transposes_S512x512_p1_0_S512x512)
        (constant S256x512 .f32 0x00000000#32) (ix2 b d)
      = Mlp.pre2 (fun b k => h (ix2 b k)) w b d := by
  rw [tail_dims_w2, Cert.MatOps.matmul_plain_zero_apply]
  unfold Mlp.pre2
  refine Finset.sum_congr rfl fun k _ => ?_
  rw [Cert.MatOps.transpose10_apply]

/-- The output buffer after the tail body, at (b, j): the perceptron's tail of the summed partial sums. The one
    store covers the buffer, the whole-buffer loads read the blocks, the casts to the same shape are the identity;
    then layer by layer from the outside in, each layer's operand rewritten under the layer above it. -/
theorem tailOut_apply (x0 : Vec Ideal S2x256x512 .f32) (x1 : Vec Ideal S512 .f32) (x2 : Vec Ideal S512x512 .bf16)
    (x3 : Vec Ideal S512 .f32) (x4 : Vec Ideal S2x512 .bf16) (x5 : Vec Ideal S2 .f32) (b : Fin 256) (j : Fin 2) :
    tailOut (F := Ideal) x0 x1 x2 x3 x4 x5 (ix2 b j)
      = Mlp.logits (Mlp.hidden (Mlp.pre2 (Mlp.hidden (fun b d => x0 (ix3 0 b d) + x0 (ix3 1 b d)) x1) x2) x3) x4 x5 b j := by
  unfold tailOut
  rw [View.canon_unit_zero (S := S256x2) tail_zeros2]
  simp only [View.ld_unit_zero (S := S512) tail_zeros1, View.ld_unit_zero (S := S512x512) tail_zeros2,
    View.ld_unit_zero (S := S2x512) tail_zeros2, View.ld_unit_zero (S := S2) tail_zeros1]
  unfold k1_pay1
  simp only [shapeCast_self]
  rw [addf_apply, tail_biasRow_apply, tail_dims_wp, Cert.MatOps.matmul_plain_zero_apply]
  unfold Mlp.logits
  refine congrArg (· + x5 (ix1 j)) (Finset.sum_congr rfl fun k _ => ?_)
  rw [Cert.MatOps.transpose10_apply, tail_hidden_apply]
  refine congrArg (· * x4 (ix2 j k)) ?_
  refine congrArg (fun s => Mlp.hidden s x3 b k) (funext fun b' => funext fun d' => ?_)
  rw [tail_matmulW2_apply]
  refine congrArg (fun h => Mlp.pre2 h x2 b' d') (funext fun b'' => funext fun k' => ?_)
  rw [tail_hidden_apply]
  refine congrArg (fun s => Mlp.hidden s x1 b'' k') (funext fun p => funext fun q => ?_)
  exact tail_partials_apply x0 p q

end Cert.KernelIdeal.Hand

end
-- ==== Proof.TailArrayI.lean ====
/-
  The tail's output array after its region, from its one block.

  The tail's grid has one point. At it every window's block is its whole array: the block index is zero on every
  axis and the block's sizes are the array's. So each input block, read off the entry contents, IS the array's
  entry contents; and the one write-back of the output window, at that point, writes the whole output array, which
  therefore ends holding what the body left in the output buffer: tailOut of the six input arrays.

  Generic in the float instance.
-/
import proofs.«139085_j2130303779207_2_alg».proof.Proof.TailBodyI
import Idealize.ShloMosaic.Lib.Pipeline.Value

set_option maxRecDepth 16384

noncomputable section

namespace Cert.KernelIdeal.Hand

open Cert.KernelIdeal Cert.KernelIdeal.Gen

open Idealize.ShloMosaic Idealize.ShloMosaic.TcCoe Idealize.SL.Sem
open Idealize.ShloMosaic.Pipeline (Dat)

variable {F : FTy → Type} [FloatOps F]

variable (V : (c : Dev nD) → (b : Ref sig .tc) → Buf (Elt F) ((c : Thread nD τ).loc b))

/-! ## Each input block is its array -/

/-- At the grid's one point an input window's block index is zero on every axis and its block has the array's sizes:
    read through it, the entry contents are themselves. One statement per window. -/
theorem wholeBlock1_0 (c : Dev nD) (t : Fin cfg1.N) : iblk1 V c 0 t = V c main_v17 := by
  obtain rfl := fin_N1 t
  unfold iblk1
  have hz' : (fun a => win1_0.index t1_0 a * main_v17.ty.shape.size a) = fun _ => 0 := funext fun a => by fin_cases a <;> decide
  exact Memref.read_access_unit_zero (Elt F) main_v17 hz' (fun a => by rw [congrFun hz' a]; simp) (V c main_v17)
theorem wholeBlock1_1 (c : Dev nD) (t : Fin cfg1.N) : iblk1 V c 1 t = V c main_arg4 := by
  obtain rfl := fin_N1 t
  unfold iblk1
  have hz' : (fun a => win1_1.index t1_0 a * main_arg4.ty.shape.size a) = fun _ => 0 := funext fun a => by fin_cases a <;> decide
  exact Memref.read_access_unit_zero (Elt F) main_arg4 hz' (fun a => by rw [congrFun hz' a]; simp) (V c main_arg4)
theorem wholeBlock1_2 (c : Dev nD) (t : Fin cfg1.N) : iblk1 V c 2 t = V c main_v15 := by
  obtain rfl := fin_N1 t
  unfold iblk1
  have hz' : (fun a => win1_2.index t1_0 a * main_v15.ty.shape.size a) = fun _ => 0 := funext fun a => by fin_cases a <;> decide
  exact Memref.read_access_unit_zero (Elt F) main_v15 hz' (fun a => by rw [congrFun hz' a]; simp) (V c main_v15)
theorem wholeBlock1_3 (c : Dev nD) (t : Fin cfg1.N) : iblk1 V c 3 t = V c main_arg6 := by
  obtain rfl := fin_N1 t
  unfold iblk1
  have hz' : (fun a => win1_3.index t1_0 a * main_arg6.ty.shape.size a) = fun _ => 0 := funext fun a => by fin_cases a <;> decide
  exact Memref.read_access_unit_zero (Elt F) main_arg6 hz' (fun a => by rw [congrFun hz' a]; simp) (V c main_arg6)
theorem wholeBlock1_4 (c : Dev nD) (t : Fin cfg1.N) : iblk1 V c 4 t = V c main_v16 := by
  obtain rfl := fin_N1 t
  unfold iblk1
  have hz' : (fun a => win1_4.index t1_0 a * main_v16.ty.shape.size a) = fun _ => 0 := funext fun a => by fin_cases a <;> decide
  exact Memref.read_access_unit_zero (Elt F) main_v16 hz' (fun a => by rw [congrFun hz' a]; simp) (V c main_v16)
theorem wholeBlock1_5 (c : Dev nD) (t : Fin cfg1.N) : iblk1 V c 5 t = V c main_arg8 := by
  obtain rfl := fin_N1 t
  unfold iblk1
  have hz' : (fun a => win1_5.index t1_0 a * main_arg8.ty.shape.size a) = fun _ => 0 := funext fun a => by fin_cases a <;> decide
  exact Memref.read_access_unit_zero (Elt F) main_arg8 hz' (fun a => by rw [congrFun hz' a]; simp) (V c main_arg8)

/-! ## The output array -/

/-- What the output array ends holding: the body's stored value of the six input arrays. -/
abbrev tailResult (c : Dev nD) : Buf (Elt F) ((c : Thread nD τ).loc main_v18) :=
  tailOut (V c main_v17) (V c main_arg4) (V c main_v15) (V c main_arg6) (V c main_v16) (V c main_arg8)

/-- The one write-back writes it: what the body left in the output buffer is tailOut of the input blocks, each its
    array; and the output window's block, at zero offsets with the array's sizes, read off an array is the array. -/
theorem tail_flushed (c : Dev nD) (t : Fin cfg1.N) (hf : (cfg1.win 6).flush t = true) :
    (dat1 V c).flushed 6 t = ((cfg1.win 6).blk t).view.read (Elt F) (tailResult V c) := by
  obtain rfl := fin_N1 t
  show (cfg1.win 6).cut (grid1.coords t1_0) ((dat1 V c).after 6 t1_0) = _
  rw [after1_6, wholeBlock1_0, wholeBlock1_1, wholeBlock1_2, wholeBlock1_3, wholeBlock1_4, wholeBlock1_5]
  have hz' : (fun a => win1_6.index t1_0 a * main_v18.ty.shape.size a) = fun _ => 0 := funext fun a => by fin_cases a <;> decide
  exact (Memref.read_access_unit_zero (Elt F) main_v18 hz' (fun a => by rw [congrFun hz' a]; simp) (tailResult V c)).symm

/-- So the output array ends holding it: the one point's block covers the array. -/
theorem tail_array (c : Dev nD) : (dat1 V c).arrAt 6 cfg1.N
    = tailOut (V c main_v17) (V c main_arg4) (V c main_v15) (V c main_arg6) (V c main_v16) (V c main_arg8) :=
  (dat1 V c).arrAt_eq_of_cover 6 (tailResult V c) (tail_flushed V c) fun i =>
    ⟨t1_0, flush1_6 t1_0, by
      show i ∈ ((View.whole main_v18).slice (win1_6.rect t1_0)).set
      rw [View.set_slice_whole, Rect.mem_set_unit]
      intro a
      have h0 : (i 0 : Nat) < 256 := (i 0).isLt
      have h1 : (i 1 : Nat) < 2 := (i 1).isLt
      match a with
      | ⟨0, _⟩ => show win1_6.index t1_0 0 * win1_6.size 0 ≤ (i 0 : Nat) ∧ (i 0 : Nat) < win1_6.index t1_0 0 * win1_6.size 0 + win1_6.xsize (grid1.coords t1_0) 0
                  rw [show win1_6.index t1_0 0 * win1_6.size 0 = 0 from by decide +kernel, show win1_6.xsize (grid1.coords t1_0) 0 = 256 from by decide +kernel]; omega
      | ⟨1, _⟩ => show win1_6.index t1_0 1 * win1_6.size 1 ≤ (i 1 : Nat) ∧ (i 1 : Nat) < win1_6.index t1_0 1 * win1_6.size 1 + win1_6.xsize (grid1.coords t1_0) 1
                  rw [show win1_6.index t1_0 1 * win1_6.size 1 = 0 from by decide +kernel, show win1_6.xsize (grid1.coords t1_0) 1 = 2 from by decide +kernel]; omega⟩

end Cert.KernelIdeal.Hand

end
-- ==== Proof.LibBlockSum.lean ====
/-
  Sums over a range cut into equal blocks.

  The numbers below `A * B` are the numbers `B * t + r` with `t < A` and `r < B`, each once: a sum over them is the
  double sum over the block `t` and the position `r` inside the block. A sum over triples is the triple sum.
-/
import Mathlib.Algebra.BigOperators.Fin
import Mathlib.Logic.Equiv.Fin.Basic

open scoped BigOperators

namespace Cert.BlockSum

variable {M : Type*} [AddCommMonoid M]

/-- Position `r` of block `t` lies below `A * B`. -/
theorem blk_lt {A B : ℕ} (t : Fin A) (r : Fin B) : B * t.val + r.val < A * B :=
  calc B * t.val + r.val < B * t.val + B := Nat.add_lt_add_left r.isLt _
    _ = B * (t.val + 1) := (Nat.mul_succ _ _).symm
    _ ≤ B * A := Nat.mul_le_mul_left B t.isLt
    _ = A * B := Nat.mul_comm _ _

/-- A sum over the numbers below `N = A * B` is the double sum over blocks and positions. -/
theorem sum_fin_blocks {A B N : ℕ} (hN : N = A * B) (f : Fin N → M) :
    ∑ j, f j = ∑ t : Fin A, ∑ r : Fin B, f ⟨B * t.val + r.val, hN ▸ blk_lt t r⟩ := by
  subst hN
  rw [← Equiv.sum_comp finProdFinEquiv f, Fintype.sum_prod_type]
  refine Finset.sum_congr rfl fun t _ => Finset.sum_congr rfl fun r _ => congrArg f (Fin.ext ?_)
  show r.val + B * t.val = B * t.val + r.val
  exact Nat.add_comm _ _

/-- A sum over triples is the triple sum. -/
theorem sum_triple {α β γ : Type*} [Fintype α] [Fintype β] [Fintype γ] (f : α × β × γ → M) :
    ∑ q, f q = ∑ x, ∑ y, ∑ z, f (x, y, z) := by
  rw [Fintype.sum_prod_type]
  exact Finset.sum_congr rfl fun x _ => Fintype.sum_prod_type _

end Cert.BlockSum
-- ==== Proof.Layer1ValueI.lean ====
/-
  The first layer's partial contraction at the extended reals, one element at a time.

  The accumulator starts a run of twenty slabs at zero; every slab adds, at (b, d), the sum over the slab's 8192
  columns j of x(b, j) · w(d, j) (the weight block is transposed before the product, so row d of w meets row b of x);
  after the twentieth slab the accumulator holds the sum over the run's 20 · 8192 columns, and it is stored unchanged
  under a leading unit axis. The whole contraction over 327680 = 2 · 20 · 8192 columns is the sum of the two runs:
  column K is 8192 · (20 · c + k) + j for exactly one run c, slab k and position j.
-/
import proofs.«139085_j2130303779207_2_alg».proof.Proof.Gen.KernelIdeal.Skeleton
import proofs.«139085_j2130303779207_2_alg».proof.Proof.Spec
import proofs.«139085_j2130303779207_2_alg».proof.Proof.LibMatmul
import proofs.«139085_j2130303779207_2_alg».proof.Proof.LibBlockSum
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.Layer1Value

open Cert.KernelIdeal Cert.KernelIdeal.Gen Idealize.ShloMosaic Idealize.ShloMosaic.ValueIdx

/-- The value that resets the accumulator is zero everywhere. -/
theorem pay1_apply (i : S256x512.Idx) : k0_pay1 (F := Ideal) i = 0 := by
  unfold k0_pay1
  rw [shapeCast_self]
  exact Ideal.ofBits_zero_f32

/-- One slab's step at (b, d): the accumulator there plus row b of the x block against row d of the w block. -/
theorem pay2_apply (a : Vec Ideal S256x512 .f32) (x : Vec Ideal S256x8192 .bf16) (w : Vec Ideal S512x8192 .bf16)
    (b : Fin 256) (d : Fin 512) :
    k0_pay2 a x w (ix2 b d) = a (ix2 b d) + ∑ j : Fin 8192, x (ix2 b j) * w (ix2 d j) := by
  unfold k0_pay2
  simp only [shapeCast_self]
  rw [addf_apply]
  congr 1
  refine (Cert.MatOps.matmul_plain_zero_apply (M := 256) (K := 8192) (N := 512) none x _ b d).trans ?_
  refine Finset.sum_congr rfl fun j _ => ?_
  rw [Cert.MatOps.transpose10_apply]

/-- The stored block at (0, b, d) is the accumulator at (b, d). -/
theorem pay3_apply (v : Vec Ideal S256x512 .f32) (b : Fin 256) (d : Fin 512) :
    k0_pay3 v (ix3 (0 : Fin 1) b d) = v (ix2 b d) := by
  unfold k0_pay3
  exact shapeCast_ab_1ab_apply v _ 0 b d

/-- The accumulator after a whole run. If the accumulator after point n is the slab step applied to zero (at the
    first point of a run of twenty) or to the accumulator after point n - 1 (elsewhere), then after the last point of run
    c it holds, at (b, d), the sum over the run's twenty slabs k of the slab's contraction. -/
theorem acc_closed (x : ℕ → Vec Ideal S256x8192 .bf16) (w : ℕ → Vec Ideal S512x8192 .bf16)
    (acc : ℕ → Vec Ideal S256x512 .f32)
    (hacc : ∀ n, n < 40 → acc n = k0_pay2 (if n % 20 = 0 then k0_pay1 (F := Ideal) else acc (n - 1)) (x n) (w n))
    (c : Fin 2) (b : Fin 256) (d : Fin 512) :
    acc (20 * c.val + 19) (ix2 b d)
      = ∑ k : Fin 20, ∑ j : Fin 8192, x (20 * c.val + k.val) (ix2 b j) * w (20 * c.val + k.val) (ix2 d j) := by
  have hc := c.isLt
  -- after slab k of the run the accumulator holds the first k + 1 slabs' contractions
  have partial_sums : ∀ k : ℕ, k < 20 → acc (20 * c.val + k) (ix2 b d)
      = ∑ s ∈ Finset.range (k + 1), ∑ j : Fin 8192, x (20 * c.val + s) (ix2 b j) * w (20 * c.val + s) (ix2 d j) := by
    intro k
    induction k with
    | zero =>
      intro _
      rw [Nat.add_zero, hacc (20 * c.val) (by omega), if_pos (Nat.mul_mod_right 20 c.val), pay2_apply, pay1_apply,
        zero_add, Finset.sum_range_one, Nat.add_zero]
    | succ k ih =>
      intro hk
      have hne : ¬ (20 * c.val + (k + 1)) % 20 = 0 := by omega
      have hpred : 20 * c.val + (k + 1) - 1 = 20 * c.val + k := by omega
      rw [hacc (20 * c.val + (k + 1)) (by omega), if_neg hne, pay2_apply, hpred, ih (by omega),
        Finset.sum_range_succ _ (k + 1)]
  rw [partial_sums 19 (by omega), Finset.sum_range]

/-- A sum over the 327680 columns is the sum over the two runs, the twenty slabs of a run and the 8192 positions of a
    slab. -/
theorem sum_slabs (g : Fin 327680 → EReal) :
    ∑ K, g K = ∑ c : Fin 2, ∑ k : Fin 20, ∑ j : Fin 8192, g ⟨8192 * (20 * c.val + k.val) + j.val, by omega⟩ := by
  refine (Cert.BlockSum.sum_fin_blocks (A := 40) (B := 8192) rfl g).trans ?_
  exact Cert.BlockSum.sum_fin_blocks (A := 2) (B := 20) rfl
    (fun t : Fin 40 => ∑ r : Fin 8192, g ⟨8192 * t.val + r.val, by omega⟩)

/-- The first layer's sum at (b, d), regrouped by run, slab and position. -/
theorem pre1_slabs (X : Mlp.SX.Idx → EReal) (W1 : Mlp.SW1.Idx → EReal) (b : Fin 256) (d : Fin 512) :
    Mlp.pre1 X W1 b d
      = ∑ c : Fin 2, ∑ k : Fin 20, ∑ j : Fin 8192,
          X (ix2 b ⟨8192 * (20 * c.val + k.val) + j.val, by omega⟩)
            * W1 (ix2 d ⟨8192 * (20 * c.val + k.val) + j.val, by omega⟩) := by
  unfold Mlp.pre1
  exact sum_slabs (fun K => X (ix2 b K) * W1 (ix2 d K))

end Cert.KernelIdeal.Layer1Value

end
-- ==== Proof.Typed.lean ====
/-
  A buffer's contents at the ideal instance is a function from the indices of its shape to the extended reals, but
  the type a program prints for it names the buffer's location, and arithmetic on its values needs the extended
  reals named. This spells the function's type out, changing nothing.
-/
import Idealize.ShloMosaic.PureOps.Ideal

namespace Mlp

open Idealize.ShloMosaic

/-- The function itself, its type written as indices to extended reals. -/
abbrev fn (S : Shape) (x : S.Idx → EReal) : S.Idx → EReal := x

theorem fn_eq (S : Shape) (x : S.Idx → EReal) : fn S x = x := rfl

end Mlp
-- ==== Proof.Layer1ArrayI.lean ====
/-
  The array the first layer's region leaves, from its blocks, at the extended reals.

  Point t of the 2 × 20 grid (run t / 20, slab t mod 20) stages columns 8192 t … 8192 t + 8191 of x and of w. The
  accumulator after the last slab of run h holds, at (b, d), the sum over the run's 20 · 8192 columns K of
  x(b, K) · w(d, K); that point, and no other of the run, writes it back as block h of the [2, 256, 512] result. The two
  write-backs cover the result, so it ends holding, at (h, b, d), half h of the first layer's sum.
-/
import proofs.«139085_j2130303779207_2_alg».proof.Proof.Layer1BodyI
import proofs.«139085_j2130303779207_2_alg».proof.Proof.Layer1ValueI
import proofs.«139085_j2130303779207_2_alg».proof.Proof.Spec
import proofs.«139085_j2130303779207_2_alg».proof.Proof.Typed
import Idealize.ShloMosaic.Lib.Pipeline.Value

open scoped BigOperators

noncomputable section

namespace Cert.KernelIdeal.Layer1Array

open Cert.KernelIdeal Cert.KernelIdeal.Gen Cert.KernelIdeal.Hand Cert.KernelIdeal.Layer1Value Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- Where the x window's block sits at point t: at block (0, t). -/
theorem xwin_index : ∀ t : Fin cfg0.N, win0_0.index t 0 = 0 ∧ win0_0.index t 1 = t.val :=
  (by decide +kernel : ∀ t : Fin grid0.N, win0_0.index t 0 = 0 ∧ win0_0.index t 1 = t.val)

/-- Where the w window's block sits at point t: at block (0, t). -/
theorem wwin_index : ∀ t : Fin cfg0.N, win0_1.index t 0 = 0 ∧ win0_1.index t 1 = t.val :=
  (by decide +kernel : ∀ t : Fin grid0.N, win0_1.index t 0 = 0 ∧ win0_1.index t 1 = t.val)

/-- The x block at point t is columns 8192 t … 8192 t + 8191 of x. -/
theorem xblock_apply (c : Dev nD) (t : Fin cfg0.N) (b : Fin 256) (j : Fin 8192) :
    (iblk0 (F := Ideal) V c 0 t : S256x8192.Idx → EReal) (ix2 b j)
      = (V c main_v13 : Mlp.SX.Idx → EReal) (ix2 b ⟨8192 * t.val + j.val, by have := t.isLt; have : cfg0.N = 40 := N_0; omega⟩) := by
  have hi := xwin_index t
  unfold iblk0
  rw [View.read_apply]
  show V c main_v13 _ = V c main_v13 _
  congr 1
  funext a
  apply Fin.ext
  match a with
  | ⟨0, _⟩ => show win0_0.index t 0 * 256 + 1 * b.val = b.val; rw [hi.1]; omega
  | ⟨1, _⟩ => show win0_0.index t 1 * 8192 + 1 * j.val = 8192 * t.val + j.val; rw [hi.2]; omega

/-- The w block at point t is columns 8192 t … 8192 t + 8191 of w. -/
theorem wblock_apply (c : Dev nD) (t : Fin cfg0.N) (d : Fin 512) (j : Fin 8192) :
    (iblk0 (F := Ideal) V c 1 t : S512x8192.Idx → EReal) (ix2 d j)
      = (V c main_v14 : Mlp.SW1.Idx → EReal) (ix2 d ⟨8192 * t.val + j.val, by have := t.isLt; have : cfg0.N = 40 := N_0; omega⟩) := by
  have hi := wwin_index t
  unfold iblk0
  rw [View.read_apply]
  show V c main_v14 _ = V c main_v14 _
  congr 1
  funext a
  apply Fin.ext
  match a with
  | ⟨0, _⟩ => show win0_1.index t 0 * 512 + 1 * d.val = d.val; rw [hi.1]; omega
  | ⟨1, _⟩ => show win0_1.index t 1 * 8192 + 1 * j.val = 8192 * t.val + j.val; rw [hi.2]; omega

/-- Where the result window's block sits at point t: at block (t / 20, 0, 0). -/
theorem owin_index : ∀ t : Fin cfg0.N, win0_2.index t 0 = t.val / 20 ∧ win0_2.index t 1 = 0 ∧ win0_2.index t 2 = 0 :=
  (by decide +kernel : ∀ t : Fin grid0.N, win0_2.index t 0 = t.val / 20 ∧ win0_2.index t 1 = 0 ∧ win0_2.index t 2 = 0)

/-- Half h of the first layer's sum at (b, d): the twenty slabs of run h. -/
def halfSum (X : Mlp.SX.Idx → EReal) (W1 : Mlp.SW1.Idx → EReal) (h : Fin 2) (b : Fin 256) (d : Fin 512) : EReal :=
  ∑ k : Fin 20, ∑ j : Fin 8192,
    X (ix2 b ⟨8192 * (20 * h.val + k.val) + j.val, by omega⟩) * W1 (ix2 d ⟨8192 * (20 * h.val + k.val) + j.val, by omega⟩)

/-- The array the region leaves: at (h, b, d), half h of the sum. -/
def Gpart (c : Dev nD) : S2x256x512.Idx → EReal :=
  fun i => halfSum (V c main_v13) (V c main_v14) (i 0) (i 1) (i 2)

/-- The x slab, the w slab and the accumulator of point n, as functions of every natural (zero past the grid). -/
def slabX (c : Dev nD) (n : ℕ) : Vec Ideal S256x8192 .bf16 := if hn : n < cfg0.N then iblk0 V c 0 ⟨n, hn⟩ else fun _ => (0 : EReal)
def slabW (c : Dev nD) (n : ℕ) : Vec Ideal S512x8192 .bf16 := if hn : n < cfg0.N then iblk0 V c 1 ⟨n, hn⟩ else fun _ => (0 : EReal)
def accAfter (c : Dev nD) (n : ℕ) : Vec Ideal S256x512 .f32 := if hn : n < cfg0.N then (outsAt0 V c n hn).2 else fun _ => (0 : EReal)

theorem slabX_at (c : Dev nD) (t : Fin cfg0.N) : slabX V c t.val = iblk0 V c 0 t := dif_pos t.isLt
theorem slabW_at (c : Dev nD) (t : Fin cfg0.N) : slabW V c t.val = iblk0 V c 1 t := dif_pos t.isLt
theorem accAfter_at (c : Dev nD) (t : Fin cfg0.N) : accAfter V c t.val = (outsAt0 V c t.val t.isLt).2 := dif_pos t.isLt

/-- The accumulator steps from point to point as the kernel's slab step says, restarting from zero at each run. -/
theorem accAfter_step (c : Dev nD) (n : ℕ) (hn : n < 40) :
    accAfter V c n = k0_pay2 (if n % 20 = 0 then k0_pay1 (F := Ideal) else accAfter V c (n - 1)) (slabX V c n) (slabW V c n) := by
  have hN : cfg0.N = 40 := N_0
  have hn' : n < cfg0.N := by omega
  have key := scratchAt_eq V c ⟨n, hn'⟩
  rw [← accAfter_at, ← slabX_at, ← slabW_at] at key
  refine key.trans ?_
  by_cases h0 : n % 20 = 0
  · rw [if_pos h0, if_pos h0]
  · rw [if_neg h0, if_neg h0]
    have hp : n - 1 < cfg0.N := by omega
    rw [show accAfter V c (n - 1) = (outsAt0 V c (n - 1) hp).2 from dif_pos hp]

/-- What the last point of a run leaves in the output block: at (0, b, d), the run's half of the sum. -/
theorem out_last (c : Dev nD) (t : Fin cfg0.N) (h19 : t.val % 20 = 19) (b : Fin 256) (d : Fin 512) :
    (outsAt0 V c t.val t.isLt).1 (ix3 (0 : Fin 1) b d)
      = halfSum (V c main_v13) (V c main_v14) ⟨t.val / 20, by have := t.isLt; have : cfg0.N = 40 := N_0; omega⟩ b d := by
  have hN : cfg0.N = 40 := N_0
  have ht := t.isLt
  have hq : t.val = 20 * (t.val / 20) + 19 := by omega
  rw [outAt_eq V c t h19, pay3_apply, ← accAfter_at]
  refine (congrFun (congrArg (accAfter V c) hq) (ix2 b d)).trans ?_
  refine (acc_closed (slabX V c) (slabW V c) (accAfter V c) (accAfter_step V c) ⟨t.val / 20, by omega⟩ b d).trans ?_
  unfold halfSum
  refine Finset.sum_congr rfl fun k _ => Finset.sum_congr rfl fun j _ => ?_
  have hk : 20 * (t.val / 20) + k.val < cfg0.N := by omega
  show slabX V c (20 * (t.val / 20) + k.val) (ix2 b j) * slabW V c (20 * (t.val / 20) + k.val) (ix2 d j) = _
  rw [show slabX V c (20 * (t.val / 20) + k.val) = iblk0 V c 0 ⟨20 * (t.val / 20) + k.val, hk⟩ from dif_pos hk,
    show slabW V c (20 * (t.val / 20) + k.val) = iblk0 V c 1 ⟨20 * (t.val / 20) + k.val, hk⟩ from dif_pos hk,
    xblock_apply, wblock_apply]

/-- A write-back writes the block of Gpart it lands on. -/
theorem flushed_eq (c : Dev nD) (t : Fin cfg0.N) (hf : (cfg0.win 2).flush t = true) :
    (dat0 V c).flushed 2 t = ((cfg0.win 2).blk t).view.read (Elt Ideal) (Gpart V c) := by
  have hN : cfg0.N = 40 := N_0
  have ht := t.isLt
  have h19 : t.val % 20 = 19 := (flush0_2 t).mp hf
  have hi := owin_index t
  show (cfg0.win 2).cut (grid0.coords t) ((dat0 V c).after 2 t) = _
  rw [after0_2]
  funext y
  obtain ⟨u, b, d, rfl⟩ : ∃ (u : Fin 1) (b : Fin 256) (d : Fin 512), y = ix3 u b d := ⟨y 0, y 1, y 2, eq_ix3 y⟩
  obtain rfl : u = 0 := Subsingleton.elim _ _
  rw [View.read_apply]
  show (outsAt0 V c t.val t.isLt).1 (ix3 (0 : Fin 1) b d) = Gpart V c _
  rw [out_last V c t h19 b d]
  show Gpart V c (ix3 (⟨t.val / 20, by omega⟩ : Fin 2) b d) = Gpart V c _
  congr 1
  funext a
  apply Fin.ext
  match a with
  | ⟨0, _⟩ => show t.val / 20 = win0_2.index t 0 * 1 + 1 * 0; rw [hi.1]; omega
  | ⟨1, _⟩ => show b.val = win0_2.index t 1 * 256 + 1 * b.val; rw [hi.2.1]; omega
  | ⟨2, _⟩ => show d.val = win0_2.index t 2 * 512 + 1 * d.val; rw [hi.2.2]; omega

/-- Every index of the result lies in the block the last point of its run writes back. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 40 := N_0
  have h0 : (i 0 : ℕ) < 2 := (i 0).isLt
  have h1 : (i 1 : ℕ) < 256 := (i 1).isLt
  have h2 : (i 2 : ℕ) < 512 := (i 2).isLt
  obtain ⟨t, ht⟩ : ∃ t : Fin cfg0.N, t.val = 20 * (i 0 : ℕ) + 19 := ⟨⟨20 * (i 0 : ℕ) + 19, by omega⟩, rfl⟩
  have hi := owin_index t
  refine ⟨t, (flush0_2 t).mpr (by omega), ?_⟩
  show i ∈ ((View.whole main_v17).slice (win0_2.rect t)).set
  rw [View.set_slice_whole, Rect.mem_set_unit]
  intro a
  match a with
  | ⟨0, _⟩ =>
    show win0_2.index t 0 * 1 ≤ (i 0 : ℕ) ∧ (i 0 : ℕ) < win0_2.index t 0 * 1 + 1
    rw [hi.1]; omega
  | ⟨1, _⟩ =>
    show win0_2.index t 1 * 256 ≤ (i 1 : ℕ) ∧ (i 1 : ℕ) < win0_2.index t 1 * 256 + 256
    rw [hi.2.1]; omega
  | ⟨2, _⟩ =>
    show win0_2.index t 2 * 512 ≤ (i 2 : ℕ) ∧ (i 2 : ℕ) < win0_2.index t 2 * 512 + 512
    rw [hi.2.2]; omega

/-- The result array after the region. -/
theorem partial_array (c : Dev nD) : (dat0 (F := Ideal) V c).arrAt 2 cfg0.N = Gpart V c :=
  (dat0 V c).arrAt_eq_of_cover 2 (Gpart V c) (flushed_eq V c) (covered c)

/-- The result array after the region, at (h, b, d): the twenty slabs of run h contracted. -/
theorem partial_apply (c : Dev nD) (h : Fin 2) (b : Fin 256) (d : Fin 512) :
    ((dat0 (F := Ideal) V c).arrAt 2 cfg0.N : S2x256x512.Idx → EReal) (ix3 h b d)
      = halfSum (V c main_v13) (V c main_v14) h b d := by
  rw [partial_array]
  rfl

/-- The first layer's whole sum is the sum of its two halves. -/
theorem pre1_halves (X : Mlp.SX.Idx → EReal) (W1 : Mlp.SW1.Idx → EReal) (b : Fin 256) (d : Fin 512) :
    Mlp.pre1 X W1 b d = halfSum X W1 0 b d + halfSum X W1 1 b d := by
  rw [pre1_slabs, Fin.sum_univ_two]
  rfl

/-- The same with the three arrays' types written as functions to the extended reals. -/
theorem partial_apply_fn (c : Dev nD) (h : Fin 2) (b : Fin 256) (d : Fin 512) :
    Mlp.fn S2x256x512 ((dat0 (F := Ideal) V c).arrAt 2 cfg0.N) (ix3 h b d)
      = ∑ k : Fin 20, ∑ j : Fin 8192,
          Mlp.fn Mlp.SX (V c main_v13) (ix2 b ⟨8192 * (20 * h.val + k.val) + j.val, by omega⟩)
            * Mlp.fn Mlp.SW1 (V c main_v14) (ix2 d ⟨8192 * (20 * h.val + k.val) + j.val, by omega⟩) :=
  partial_apply V c h b d

end Cert.KernelIdeal.Layer1Array

end
-- ==== Proof.RefValue.lean ====
/-
  The reference program's result is the perceptron of the specification.

  The reference builds its row matrix (the masked embeddings of each row's 512 tokens, laid side by side) by a gather,
  a multiplication by the mask and a reshape; that matrix is kept here as one opaque term Xref of the token, mask and
  embedding arrays, never read at an index. Everything after it is read coordinate by coordinate: a contraction against a
  transposed weight matrix is the sum over k of the row entry times the weight's entry at (d, k); the bias is
  broadcast along the rows; the cut at zero is the maximum with the zero word, which is the extended real 0.
-/
import proofs.«139085_j2130303779207_2_alg».proof.Proof.Gen.ReferenceIdeal.Read
import proofs.«139085_j2130303779207_2_alg».proof.Proof.Spec

noncomputable section

open scoped BigOperators

namespace Cert.ReferenceIdeal.RefValue

open Cert.ReferenceIdeal Cert.ReferenceIdeal.Gen Idealize.ShloMosaic Idealize.ShloMosaic.ValueIdx

/-- The reference's row matrix: operations %0 to %12 composed, as a function of the token, mask and embedding arrays. -/
def Xref (data mask : (⟨S256x512, .i32⟩ : BufTy).Contents (Elt Ideal)) (emb : (⟨S50000x640, .f32⟩ : BufTy).Contents (Elt Ideal)) :
    (⟨S256x327680, .f32⟩ : BufTy).Contents (Elt Ideal) :=
  Read.val_main_v12 (F := Ideal) data mask emb

/-! ## The index maps of the stages, at coordinates -/

theorem lidx14 (b : Fin 256) (d : Fin 512) (k : Fin 327680) : Read.lidx_main_v14 (ix2 b d) k = ix2 b k :=
  funext fun a => by match a with | ⟨0, _⟩ => rfl | ⟨1, _⟩ => rfl
theorem ridx14 (b : Fin 256) (d : Fin 512) (k : Fin 327680) : Read.idx_main_v13 (Read.ridx_main_v14 (ix2 b d) k) = ix2 d k :=
  funext fun a => by match a with | ⟨0, _⟩ => rfl | ⟨1, _⟩ => rfl
theorem bias16 (b : Fin 256) (d : Fin 512) : Read.idx_main_v15 (Read.idx_main_v16 (ix2 b d)) = ix1 d :=
  funext fun a => by match a with | ⟨0, _⟩ => rfl
theorem lidx20 (b : Fin 256) (d : Fin 512) (k : Fin 512) : Read.lidx_main_v20 (ix2 b d) k = ix2 b k :=
  funext fun a => by match a with | ⟨0, _⟩ => rfl | ⟨1, _⟩ => rfl
theorem ridx20 (b : Fin 256) (d : Fin 512) (k : Fin 512) : Read.idx_main_v19 (Read.ridx_main_v20 (ix2 b d) k) = ix2 d k :=
  funext fun a => by match a with | ⟨0, _⟩ => rfl | ⟨1, _⟩ => rfl
theorem bias22 (b : Fin 256) (d : Fin 512) : Read.idx_main_v21 (Read.idx_main_v22 (ix2 b d)) = ix1 d :=
  funext fun a => by match a with | ⟨0, _⟩ => rfl
theorem lidx26 (b : Fin 256) (j : Fin 2) (k : Fin 512) : Read.lidx_main_v26 (ix2 b j) k = ix2 b k :=
  funext fun a => by match a with | ⟨0, _⟩ => rfl | ⟨1, _⟩ => rfl
theorem ridx26 (b : Fin 256) (j : Fin 2) (k : Fin 512) : Read.idx_main_v25 (Read.ridx_main_v26 (ix2 b j) k) = ix2 j k :=
  funext fun a => by match a with | ⟨0, _⟩ => rfl | ⟨1, _⟩ => rfl
theorem bias28 (b : Fin 256) (j : Fin 2) : Read.idx_main_v27 (Read.idx_main_v28 (ix2 b j)) = ix1 j :=
  funext fun a => by match a with | ⟨0, _⟩ => rfl

/-! ## The layers, at coordinates -/

section Layers

variable (data mask : (⟨S256x512, .i32⟩ : BufTy).Contents (Elt Ideal)) (emb : (⟨S50000x640, .f32⟩ : BufTy).Contents (Elt Ideal))
  (W1 : (⟨S512x327680, .f32⟩ : BufTy).Contents (Elt Ideal)) (b1 : (⟨S512, .f32⟩ : BufTy).Contents (Elt Ideal))
  (W2 : (⟨S512x512, .f32⟩ : BufTy).Contents (Elt Ideal)) (b2 : (⟨S512, .f32⟩ : BufTy).Contents (Elt Ideal))
  (Wp : (⟨S2x512, .f32⟩ : BufTy).Contents (Elt Ideal)) (bp : (⟨S2, .f32⟩ : BufTy).Contents (Elt Ideal))

/-- The first contraction: row b of the row matrix against row d of W1. -/
theorem pre1_apply (b : Fin 256) (d : Fin 512) :
    Read.val_main_v14 (F := Ideal) data mask emb W1 (ix2 b d) = Mlp.pre1 (Xref data mask emb) W1 b d := by
  rw [Read.val_main_v14_apply]
  unfold Mlp.pre1 Xref
  refine Finset.sum_congr rfl fun k _ => ?_
  rw [Read.val_main_v13_apply, lidx14, ridx14]

/-- The first hidden layer. -/
theorem hidden1_apply (b : Fin 256) (d : Fin 512) :
    Read.val_main_v18 (F := Ideal) data mask emb W1 b1 (ix2 b d) = Mlp.hidden (Mlp.pre1 (Xref data mask emb) W1) b1 b d := by
  rw [Read.val_main_v18_apply, Read.val_main_v17_apply, pre1_apply, Read.val_main_v16_apply, Read.val_main_v15_apply, bias16,
    Read.val_main_call0_v0_apply, Read.val_main_call0_cst_apply, Ideal.maximumf_def, Ideal.addf_def, Ideal.ofBits_def,
    Ideal.ofBits_zero_f32]
  rfl

/-- The second contraction: row b of the first hidden layer against row d of W2. -/
theorem pre2_apply (b : Fin 256) (d : Fin 512) :
    Read.val_main_v20 (F := Ideal) data mask emb W1 b1 W2 (ix2 b d)
      = Mlp.pre2 (Mlp.hidden (Mlp.pre1 (Xref data mask emb) W1) b1) W2 b d := by
  rw [Read.val_main_v20_apply]
  unfold Mlp.pre2
  refine Finset.sum_congr rfl fun k _ => ?_
  rw [Read.val_main_v19_apply, lidx20, ridx20, hidden1_apply]

/-- The second hidden layer. -/
theorem hidden2_apply (b : Fin 256) (d : Fin 512) :
    Read.val_main_v24 (F := Ideal) data mask emb W1 b1 W2 b2 (ix2 b d)
      = Mlp.hidden (Mlp.pre2 (Mlp.hidden (Mlp.pre1 (Xref data mask emb) W1) b1) W2) b2 b d := by
  rw [Read.val_main_v24_apply, Read.val_main_v23_apply, pre2_apply, Read.val_main_v22_apply, Read.val_main_v21_apply, bias22,
    Read.val_main_call1_v0_apply, Read.val_main_call1_cst_apply, Ideal.maximumf_def, Ideal.addf_def, Ideal.ofBits_def,
    Ideal.ofBits_zero_f32]
  rfl

/-- The two output scores of row b. -/
theorem logits_apply (b : Fin 256) (j : Fin 2) :
    Read.val_main_v29 (F := Ideal) data mask emb W1 b1 W2 b2 Wp bp (ix2 b j)
      = Mlp.logits (Mlp.hidden (Mlp.pre2 (Mlp.hidden (Mlp.pre1 (Xref data mask emb) W1) b1) W2) b2) Wp bp b j := by
  rw [Read.val_main_v29_apply, Read.val_main_v26_apply, Read.val_main_v28_apply, Read.val_main_v27_apply, bias28, Ideal.addf_def]
  unfold Mlp.logits
  refine congrArg (· + bp (ix1 j)) (Finset.sum_congr rfl fun k _ => ?_)
  rw [Read.val_main_v25_apply, lidx26, ridx26, hidden2_apply]

/-- The reference's result is the perceptron of the specification on its own row matrix. -/
theorem result_eq :
    Read.val_main_v29 (F := Ideal) data mask emb W1 b1 W2 b2 Wp bp = Mlp.G (Xref data mask emb) W1 b1 W2 b2 Wp bp := by
  funext i
  obtain ⟨b, j, rfl⟩ : ∃ (b : Fin 256) (j : Fin 2), i = ix2 b j := ⟨i 0, i 1, eq_ix2 i⟩
  rw [logits_apply]
  rfl

end Layers

end Cert.ReferenceIdeal.RefValue

end
-- ==== Proof.HostPrefixI.lean ====
/-
  What the kernel program's host operations leave in the arrays its two regions read.

  Before its first region the kernel program builds the row matrix exactly as the reference does (the same thirteen
  operations on the token, mask and embedding arrays) and then narrows the float format of the row matrix and of the
  three weight matrices. On the extended reals a change of float format is the identity, so after the host operations
  the narrowed row matrix is the reference's row matrix, each narrowed weight matrix is the weight matrix as launched,
  and the three bias vectors, which no host operation writes, are as launched.
-/
import proofs.«139085_j2130303779207_2_alg».proof.Proof.Gen.KernelIdeal.Regions
import proofs.«139085_j2130303779207_2_alg».proof.Proof.RefValue
import Idealize.ShloMosaic.Lib.StableHlo.Run
import Idealize.ShloMosaic.Lib.ValueIdx

noncomputable section

namespace Cert.KernelIdeal.HostPrefix

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

/-- The narrowed first-layer weights are the first-layer weights as launched. -/
theorem weights1 : (Gen.V1 (F := Ideal) m c main_v14 : Mlp.SW1.Idx → EReal) = m ((c : Thread nD τ).loc main_arg3) := by
  show StableHlo.after hostOps0 (fun b => m (c, b)) (Proc.devRef .tc main_v14) = _
  after_results
  rfl

/-- The narrowed second-layer weights are the second-layer weights as launched. -/
theorem weights2 : (Gen.V1 (F := Ideal) m c main_v15 : Mlp.SW2.Idx → EReal) = m ((c : Thread nD τ).loc main_arg5) := by
  show StableHlo.after hostOps0 (fun b => m (c, b)) (Proc.devRef .tc main_v15) = _
  after_results
  rfl

/-- The narrowed output-layer weights are the output-layer weights as launched. -/
theorem weightsP : (Gen.V1 (F := Ideal) m c main_v16 : Mlp.SWp.Idx → EReal) = m ((c : Thread nD τ).loc main_arg7) := by
  show StableHlo.after hostOps0 (fun b => m (c, b)) (Proc.devRef .tc main_v16) = _
  after_results
  rfl

/-- The narrowed row matrix is the reference's row matrix of the token, mask and embedding arrays as launched. -/
theorem rowMatrix : (Gen.V1 (F := Ideal) m c main_v13 : Mlp.SX.Idx → EReal)
    = Cert.ReferenceIdeal.RefValue.Xref (m ((c : Thread nD τ).loc main_arg0)) (m ((c : Thread nD τ).loc main_arg1)) (m ((c : Thread nD τ).loc main_arg2)) := by
  show StableHlo.after hostOps0 (fun b => m (c, b)) (Proc.devRef .tc main_v13) = _
  after_results
  rfl

/-- No host operation writes the first bias. -/
theorem bias1 : Gen.V1 (F := Ideal) m c main_arg4 = m ((c : Thread nD τ).loc main_arg4) :=
  Gen.V1_of m c main_arg4 (by decide)
/-- No host operation writes the second bias. -/
theorem bias2 : Gen.V1 (F := Ideal) m c main_arg6 = m ((c : Thread nD τ).loc main_arg6) :=
  Gen.V1_of m c main_arg6 (by decide)
/-- No host operation writes the output bias. -/
theorem biasP : Gen.V1 (F := Ideal) m c main_arg8 = m ((c : Thread nD τ).loc main_arg8) :=
  Gen.V1_of m c main_arg8 (by decide)

end Cert.KernelIdeal.HostPrefix

end
-- ==== Proof.BridgeI.lean ====
/-
  The kernel's result array, on the extended reals, is the perceptron of the specification applied to the row
  matrix its host operations build. The second region's one block is the whole result: the output layer over
  the second hidden layer over the first, whose pre-activation is the sum of the two halves the first region
  left. Half h at row b and unit d is the sum over its twenty slabs k and the 8192 columns j of a slab of
  X[b, 8192·(20h + k) + j] · W1[d, 8192·(20h + k) + j]; the two halves together run over every column once,
  so their sum is the whole contraction.
-/
import proofs.«139085_j2130303779207_2_alg».proof.Proof.RunI
import proofs.«139085_j2130303779207_2_alg».proof.Proof.TailValueI
import proofs.«139085_j2130303779207_2_alg».proof.Proof.TailArrayI
import proofs.«139085_j2130303779207_2_alg».proof.Proof.Layer1ValueI
import proofs.«139085_j2130303779207_2_alg».proof.Proof.Layer1ArrayI
import proofs.«139085_j2130303779207_2_alg».proof.Proof.HostPrefixI
import proofs.«139085_j2130303779207_2_alg».proof.Proof.RefValue
import proofs.«139085_j2130303779207_2_alg».proof.Proof.Spec
import proofs.«139085_j2130303779207_2_alg».proof.Proof.Typed

noncomputable section

open scoped BigOperators

namespace Cert.KernelIdeal.Bridge

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The perceptron of the kernel's nine argument arrays. -/
def answer (c : Dev nD) : Buf (Elt Ideal) ((c.tc : Thread nD τ).loc main_v18) :=
  Mlp.G (Cert.ReferenceIdeal.RefValue.Xref (m ((c : Thread nD τ).loc main_arg0)) (m ((c : Thread nD τ).loc main_arg1)) (m ((c : Thread nD τ).loc main_arg2)))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The kernel's row matrix, named. -/
abbrev rows (c : Dev nD) : Mlp.SX.Idx → EReal :=
  Cert.ReferenceIdeal.RefValue.Xref (m ((c : Thread nD τ).loc main_arg0)) (m ((c : Thread nD τ).loc main_arg1)) (m ((c : Thread nD τ).loc main_arg2))

/-- The two halves the first region leaves add up to the whole first contraction. -/
theorem halves (c : Dev nD) (b : Fin 256) (d : Fin 512) :
    Mlp.fn S2x256x512 (E2 m c main_v17) (ix3 (0 : Fin 2) b d) + Mlp.fn S2x256x512 (E2 m c main_v17) (ix3 (1 : Fin 2) b d)
      = Mlp.pre1 (rows m c) (m ((c : Thread nD τ).loc main_arg3)) b d := by
  have e : Mlp.fn S2x256x512 (E2 m c main_v17) = Mlp.fn S2x256x512 ((dat0 (F := Ideal) (E1 m) c).arrAt 2 cfg0.N) := B2_arr m c 2
  have p0 : Mlp.fn S2x256x512 ((dat0 (F := Ideal) (E1 m) c).arrAt 2 cfg0.N) (ix3 (0 : Fin 2) b d)
      = Cert.KernelIdeal.Layer1Array.halfSum (E1 m c main_v13) (E1 m c main_v14) 0 b d :=
    Cert.KernelIdeal.Layer1Array.partial_apply (E1 m) c 0 b d
  have p1 : Mlp.fn S2x256x512 ((dat0 (F := Ideal) (E1 m) c).arrAt 2 cfg0.N) (ix3 (1 : Fin 2) b d)
      = Cert.KernelIdeal.Layer1Array.halfSum (E1 m c main_v13) (E1 m c main_v14) 1 b d :=
    Cert.KernelIdeal.Layer1Array.partial_apply (E1 m) c 1 b d
  have hx : (E1 m c main_v13 : Mlp.SX.Idx → EReal) = rows m c := Cert.KernelIdeal.HostPrefix.rowMatrix m c
  have hw : (E1 m c main_v14 : Mlp.SW1.Idx → EReal) = m ((c : Thread nD τ).loc main_arg3) := Cert.KernelIdeal.HostPrefix.weights1 m c
  rw [e, p0, p1, hx, hw]
  exact (Cert.KernelIdeal.Layer1Array.pre1_halves (rows m c) (m ((c : Thread nD τ).loc main_arg3)) b d).symm

/-- The second region's entry contents at the small layers' arrays are the arguments. -/
theorem tail_inputs (c : Dev nD) :
    Mlp.fn Mlp.SV512 (E2 m c main_arg4) = m ((c : Thread nD τ).loc main_arg4)
    ∧ Mlp.fn Mlp.SW2 (E2 m c main_v15) = m ((c : Thread nD τ).loc main_arg5)
    ∧ Mlp.fn Mlp.SV512 (E2 m c main_arg6) = m ((c : Thread nD τ).loc main_arg6)
    ∧ Mlp.fn Mlp.SWp (E2 m c main_v16) = m ((c : Thread nD τ).loc main_arg7)
    ∧ Mlp.fn Mlp.SV2 (E2 m c main_arg8) = m ((c : Thread nD τ).loc main_arg8) :=
  ⟨(B2_of_ne m c main_arg4 (by decide)).trans (Cert.KernelIdeal.HostPrefix.bias1 m c),
   (B2_of_ne m c main_v15 (by decide)).trans (Cert.KernelIdeal.HostPrefix.weights2 m c),
   (B2_of_ne m c main_arg6 (by decide)).trans (Cert.KernelIdeal.HostPrefix.bias2 m c),
   (B2_of_ne m c main_v16 (by decide)).trans (Cert.KernelIdeal.HostPrefix.weightsP m c),
   (B2_of_ne m c main_arg8 (by decide)).trans (Cert.KernelIdeal.HostPrefix.biasP m c)⟩

/-- The result array after the run is the perceptron of the arguments. -/
theorem result_is_answer (c : Dev nD) : (dat1 (F := Ideal) (E2 m) c).arrAt 6 cfg1.N = answer m c := by
  rw [tail_array (E2 m) c]
  funext i
  obtain ⟨b, j, rfl⟩ : ∃ (b : Fin 256) (j : Fin 2), i = ix2 b j := ⟨i 0, i 1, eq_ix2 i⟩
  obtain ⟨h4, h15, h6, h16, h8⟩ := tail_inputs m c
  have hh : (fun b d => Mlp.fn S2x256x512 (E2 m c main_v17) (ix3 (0 : Fin 2) b d) + Mlp.fn S2x256x512 (E2 m c main_v17) (ix3 (1 : Fin 2) b d))
      = Mlp.pre1 (rows m c) (m ((c : Thread nD τ).loc main_arg3)) := funext fun b => funext fun d => halves m c b d
  rw [tailOut_apply]
  unfold answer Mlp.G Mlp.tail
  rw [← hh, ← h4, ← h15, ← h6, ← h16, ← h8]

end Cert.KernelIdeal.Bridge

end
-- ==== Proof.Claims.lean ====
/-
  The five claims. The word-level kernel and its idealization run to the end with their arguments unchanged (the run
  of the three items, at either float instance); the reference's frame is its run with the result dropped; the
  idealization rewrote nothing; and on the extended reals both programs end with the perceptron of the
  specification applied to the same row matrix: the kernel's two half-contractions over twenty slabs each
  regroup the reference's one sum over 327680 columns, which addition's commutativity and associativity allow
  with no appeal to finiteness.
-/
import proofs.«139085_j2130303779207_2_alg».proof.Defs
import proofs.«139085_j2130303779207_2_alg».proof.Proof.RunB
import proofs.«139085_j2130303779207_2_alg».proof.Proof.RunI
import proofs.«139085_j2130303779207_2_alg».proof.Proof.BridgeI
import proofs.«139085_j2130303779207_2_alg».proof.Proof.RefValue
import proofs.«139085_j2130303779207_2_alg».proof.Proof.Gen.Kernel
import proofs.«139085_j2130303779207_2_alg».proof.Proof.Gen.KernelIdeal
import proofs.«139085_j2130303779207_2_alg».proof.Proof.Gen.ReferenceIdeal
import proofs.«139085_j2130303779207_2_alg».proof.Proof.Gen.ReferenceIdeal.Run
import proofs.«139085_j2130303779207_2_alg».proof.Proof.Gen.ReferenceIdeal.Read
import proofs.«139085_j2130303779207_2_alg».proof.Proof.Gen.Pre_finite_inputs

noncomputable section

namespace Cert.Proof.MlpClaims

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- Both programs end at the perceptron of the kernel's arguments. -/
theorem algebraic : Cert.algebraic_KernelIdeal_ReferenceIdeal := by
  intro m ρ m' ρ' _ hagree
  refine ⟨fun c => Cert.KernelIdeal.Bridge.answer m c, ?_, ?_⟩
  · exact (θ_run Cert.KernelIdeal.defs _ _).mono
      (fun _ h c => ⟨(h c).1.trans (Cert.KernelIdeal.Bridge.result_is_answer m c), (h c).2⟩)
      (Cert.KernelIdeal.Hand.run_read (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v29_eq, Cert.ReferenceIdeal.RefValue.result_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    rfl

end Cert.Proof.MlpClaims

end
-- ==== Proof.lean ====
/-
  Two programs compute a three-layer perceptron over masked token embeddings: a kernel that contracts the
  327680-column row matrix against the first weight matrix in two halves of twenty slabs each, accumulating each
  half in a scratch buffer and adding the halves in a second small region, and a reference that contracts all
  columns at once. Proof/Spec.lean states the perceptron; Proof/Layer1*.lean and Proof/Tail*.lean hold the two
  regions' bodies and what they leave; Proof/Run*.lean the program's run; Proof/RefValue.lean the reference's
  value; Proof/HostPrefixI.lean the row matrix the kernel's host operations build; Proof/BridgeI.lean joins them;
  Proof/Claims.lean states the five claims assembled below.
-/
import proofs.«139085_j2130303779207_2_alg».proof.Defs
import proofs.«139085_j2130303779207_2_alg».proof.Proof.Claims
import proofs.«139085_j2130303779207_2_alg».proof.Proof.Gen.Kernel
import proofs.«139085_j2130303779207_2_alg».proof.Proof.Gen.Kernel.Skeleton
import proofs.«139085_j2130303779207_2_alg».proof.Proof.Gen.Kernel.Launch
import proofs.«139085_j2130303779207_2_alg».proof.Proof.Gen.Kernel.Regions
import proofs.«139085_j2130303779207_2_alg».proof.Proof.Gen.Kernel.Points
import proofs.«139085_j2130303779207_2_alg».proof.Proof.Gen.KernelIdeal
import proofs.«139085_j2130303779207_2_alg».proof.Proof.Gen.KernelIdeal.Skeleton
import proofs.«139085_j2130303779207_2_alg».proof.Proof.Gen.KernelIdeal.Launch
import proofs.«139085_j2130303779207_2_alg».proof.Proof.Gen.KernelIdeal.Regions
import proofs.«139085_j2130303779207_2_alg».proof.Proof.Gen.KernelIdeal.Points
import proofs.«139085_j2130303779207_2_alg».proof.Proof.Gen.ReferenceIdeal
import proofs.«139085_j2130303779207_2_alg».proof.Proof.Gen.ReferenceIdeal.Run
import proofs.«139085_j2130303779207_2_alg».proof.Proof.Gen.ReferenceIdeal.Read
import proofs.«139085_j2130303779207_2_alg».proof.Proof.Gen.Pre_finite_inputs
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    MlpClaims.frame_k, MlpClaims.frame_ki, MlpClaims.frame_ri, MlpClaims.preserves, MlpClaims.algebraic⟩

end Cert.Proof

end
